-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x128 .f32) (main_arg3 : FVec F S128x128 .f32) (main_arg4 : FVec F S128x128 .f32) (main_arg5 : FVec F S128 .f32) (main_arg6 : FVec F S128x128 .f32) (main_arg7 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S10000x384 : Shape := ⟨2, ![10000, 384]⟩
abbrev S400x384 : Shape := ⟨2, ![400, 384]⟩

abbrev nBuf : Space → Nat
  | .hbm => 15
  | .vmem => 24
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S128x128, .f32⟩
  | .hbm, ⟨11, _⟩ => ⟨S128x128, .f32⟩
  | .hbm, ⟨12, _⟩ => ⟨S10000x128, .f32⟩
  | .hbm, ⟨13, _⟩ => ⟨S10000x128, .f32⟩
  | .hbm, ⟨14, _⟩ => ⟨S10000x384, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | .local _ .vmem, ⟨13, _⟩ => ⟨S400x128, .f32⟩
  | .local _ .vmem, ⟨14, _⟩ => ⟨S400x10000, .f32⟩
  | .local _ .vmem, ⟨15, _⟩ => ⟨S400x10000, .f32⟩
  | .local _ .vmem, ⟨16, _⟩ => ⟨S10000x128, .f32⟩
  | .local _ .vmem, ⟨17, _⟩ => ⟨S400x128, .f32⟩
  | .local _ .vmem, ⟨18, _⟩ => ⟨S400x128, .f32⟩
  | .local _ .vmem, ⟨19, _⟩ => ⟨S400x128, .f32⟩
  | .local _ .vmem, ⟨20, _⟩ => ⟨S400x128, .f32⟩
  | .local _ .vmem, ⟨21, _⟩ => ⟨S128x128, .f32⟩
  | .local _ .vmem, ⟨22, _⟩ => ⟨S400x384, .f32⟩
  | .local _ .vmem, ⟨23, _⟩ => ⟨S400x384, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  transposes_S128x128_S128x128_1_0 : S128x128.Transposes [1, 0] S128x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S10000x128_S10000x128 : S10000x128.ShapeCasts S10000x128
  shapeCasts_S400x128_S400x128 : S400x128.ShapeCasts S400x128
  inb_S400x384_S400x128_0_0 : ∀ a, (![0, 0] : Fin 2 → Nat) a + S400x128.size a ≤ S400x384.size a
  inb_S400x384_S400x128_0_128 : ∀ a, (![0, 128] : Fin 2 → Nat) a + S400x128.size a ≤ S400x384.size a
  inb_S400x384_S400x128_0_256 : ∀ a, (![0, 256] : Fin 2 → Nat) a + S400x128.size a ≤ S400x384.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .f32 = 32 ∨ (Rect.block (s := S10000x128) S400x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x128.size a ≤ S10000x128.size a
  hwx0_9 : ∀ i : grid0.Coords, EltTy.bits .f32 = 32 ∨ (Rect.block (s := S10000x128) S400x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x384.size a ≤ S10000x384.size a
  hwx1_5 : ∀ i : grid1.Coords, EltTy.bits .f32 = 32 ∨ (Rect.block (s := S10000x384) S400x384.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x384.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S10000x384 : Shape := ⟨2, ![10000, 384]⟩

abbrev nBuf : Space → Nat
  | .hbm => 29
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S128x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x384, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x128_S10000x128_S10000x128_S10000x384_d1 : Shape.Concatenates [S10000x128, S10000x128, S10000x128] S10000x384 1
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BitsBody0.lean ====
/-
  First launch, the body's side. At every grid point the body reads its eight input blocks whole, stores the first
  convolution's block (a function of the adjacency stripe, the whole feature matrix and the weight) over the whole of
  output buffer 8 and the self path's block (a function of the feature rows, the two transposed linear weights and the
  two bias rows) over the whole of output buffer 9; it keeps nothing between points. Stated at a parameter `V`: the
  contents of the core's arrays when the launch is entered.
-/
import proofs.«145658_g5471788335182_cont_9to1c4b_211_5_alg».proof.Proof.Gen.Kernel.Launch
import proofs.«145658_g5471788335182_cont_9to1c4b_211_5_alg».proof.Proof.Gen.Kernel.Skeleton
import proofs.«145658_g5471788335182_cont_9to1c4b_211_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: an unfetched window's block
    index has not moved, and the body leaves every input buffer as it found it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every access is a whole buffer -/

abbrev rA : Rect S400x10000 := Rect.unit (s := S400x10000) ![0, 0] S400x10000.size inb_S400x10000_S400x10000_0_0
abbrev rB : Rect S10000x128 := Rect.unit (s := S10000x128) ![0, 0] S10000x128.size inb_S10000x128_S10000x128_0_0
abbrev rC : Rect S400x128 := Rect.unit (s := S400x128) ![0, 0] S400x128.size inb_S400x128_S400x128_0_0
abbrev rD : Rect S128x128 := Rect.unit (s := S128x128) ![0, 0] S128x128.size inb_S128x128_S128x128_0_0
abbrev rE : Rect S1x128 := Rect.unit (s := S1x128) ![0, 0] S1x128.size inb_S1x128_S1x128_0_0

/-- Output buffer 8 after the body: the one store of the first convolution's block. -/
def out0_8 (x0 : Vec F S400x10000 .f32) (x1 : Vec F S10000x128 .f32) (x3 : Vec F S128x128 .f32) : Vec F S400x128 .f32 :=
  View.canon [⟨rC, k0_pay1 (View.ld x0 rA) (View.ld x1 rB) (View.ld x3 rD)⟩]

/-- Output buffer 9 after the body: the one store of the self path's block. -/
def out0_9 (x2 : Vec F S400x128 .f32) (x4 : Vec F S128x128 .f32) (x5 : Vec F S1x128 .f32) (x6 : Vec F S128x128 .f32) (x7 : Vec F S1x128 .f32) : Vec F S400x128 .f32 :=
  View.canon [⟨rC, k0_pay2 (View.ld x2 rC) (View.ld x4 rD) (View.ld x5 rE) (View.ld x6 rD) (View.ld x7 rE)⟩]

/-- A whole-buffer store covers the buffer. -/
theorem coverC (p0 : Vec F S400x128 .f32) (y : S400x128.Idx) :
    ∃ pc ∈ ([⟨rC, p0⟩] : List (View.Piece (Elt F) S400x128 .f32)), y ∈ pc.1.set :=
  View.cover_of_tiled [⟨rC, p0⟩] S400x128.size (by rfl) y

set_option maxHeartbeats 1000000 in
/-- The body on whole staging memrefs, the inputs' at contents `xW` and the outputs' at anything, runs to a state holding
    the inputs' as they were and the two outputs' at `out0_8`, `out0_9` of the inputs'. -/
theorem sound_kernel0 (c : Dev nD) (E : Set ℕ) (i : grid0.Coords)
    (a0 : Memref sig .tc .vmem S400x10000 .f32) (h0 : a0.IsWhole) (a1 : Memref sig .tc .vmem S10000x128 .f32) (h1 : a1.IsWhole)
    (a2 : Memref sig .tc .vmem S400x128 .f32) (h2 : a2.IsWhole) (a3 : Memref sig .tc .vmem S128x128 .f32) (h3 : a3.IsWhole)
    (a4 : Memref sig .tc .vmem S128x128 .f32) (h4 : a4.IsWhole) (a5 : Memref sig .tc .vmem S1x128 .f32) (h5 : a5.IsWhole)
    (a6 : Memref sig .tc .vmem S128x128 .f32) (h6 : a6.IsWhole) (a7 : Memref sig .tc .vmem S1x128 .f32) (h7 : a7.IsWhole)
    (a8 : Memref sig .tc .vmem S400x128 .f32) (h8 : a8.IsWhole) (a9 : Memref sig .tc .vmem S400x128 .f32) (h9 : a9.IsWhole)
    (x0 : Vec F S400x10000 .f32) (x1 : Vec F S10000x128 .f32) (x2 : Vec F S400x128 .f32) (x3 : Vec F S128x128 .f32)
    (x4 : Vec F S128x128 .f32) (x5 : Vec F S1x128 .f32) (x6 : Vec F S128x128 .f32) (x7 : Vec F S1x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare (out0_8 x0 x1 x3) ∗ owns (c : Thread nD τ) a9 fullShare (out0_9 x2 x4 x5 x6 x7)) -∗ K ⟨⟩))
      ⊢ wp frame (wpE (defs₀ (F := F)) Variants.none c none) E (cc0__pass1 i a0 h0 a1 h1 a2 h2 a3 h3 a4 h4 a5 h5 a6 h6 a7 h7 a8 h8 a9 h9) K := by
  simp only [cc0__pass1_eq_skeleton]; unfold cc0__pass1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverC _)
  iexists _; isplitr
  swap; · iexact H9
  ipureintro
  exact View.read_writes_eq_canon _ _ _ (coverC _)

/-! ## The launch's proof data -/

/-- The proof data on core `c`: the arrays as the launch finds them; after the body at point `t` every input buffer
    at its block and every output buffer at the body's stores over the input blocks; the invariant carries only the scoped
    buffers the launch does not stage and the generator register; nothing owed. An array handed to two input windows is
    held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 3 t)
    | ⟨9, _⟩ => out0_9 (iblk0 V c 2 t) (iblk0 V c 4 t) (iblk0 V c 5 t) (iblk0 V c 6 t) (iblk0 V c 7 t)
  Φ _ := Pipeline.ΦA spec0 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 3 t) := by dsimp only [dat0]
theorem after0_9 (c : Dev nD) (t : Fin cfg0.N) : (dat0 V c).after 9 t = out0_9 (iblk0 V c 2 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.BitsBody1.lean ====
/-
  Second launch, the body's side. At every grid point the body reads its five input blocks whole and fills output buffer 5,
  a [400,384] block, by three stores side by side: columns 0..127 the self path's rows as read, columns 128..255 the first
  convolution's rows as read, columns 256..383 the second convolution's block (a function of the adjacency stripe, the
  whole first convolution and the second weight). It keeps nothing between points. Stated at a parameter `V`: the contents
  of the core's arrays when the launch is entered.
-/
import proofs.«145658_g5471788335182_cont_9to1c4b_211_5_alg».proof.Proof.BitsBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles -/

abbrev rL : Rect S400x384 := Rect.unit (s := S400x384) ![0, 0] S400x128.size inb_S400x384_S400x128_0_0
abbrev rM : Rect S400x384 := Rect.unit (s := S400x384) ![0, 128] S400x128.size inb_S400x384_S400x128_0_128
abbrev rR : Rect S400x384 := Rect.unit (s := S400x384) ![0, 256] S400x128.size inb_S400x384_S400x128_0_256

/-- Output buffer 5 after the body: its three stores, last first. -/
def out1_5 (x0 : Vec F S400x10000 .f32) (x1 : Vec F S10000x128 .f32) (x2 : Vec F S400x128 .f32) (x3 : Vec F S400x128 .f32) (x4 : Vec F S128x128 .f32) : Vec F S400x384 .f32 :=
  View.canon [⟨rR, k1_pay1 (View.ld x0 rA) (View.ld x1 rB) (View.ld x4 rD)⟩, ⟨rM, k1_pay3 (View.ld x2 rC)⟩, ⟨rL, k1_pay2 (View.ld x3 rC)⟩]

/-- The three column blocks tile the buffer, so the stores cover it. -/
theorem cover1_5 (p0 p1 p2 : Vec F S400x128 .f32) (y : S400x384.Idx) :
    ∃ pc ∈ ([⟨rR, p0⟩, ⟨rM, p1⟩, ⟨rL, p2⟩] : List (View.Piece (Elt F) S400x384 .f32)), y ∈ pc.1.set :=
  View.cover_of_tiled [⟨rR, p0⟩, ⟨rM, p1⟩, ⟨rL, p2⟩] S400x128.size (by rfl) y

set_option maxHeartbeats 1000000 in
/-- The body on whole staging memrefs, the inputs' at contents `xW` and the output's at anything, runs to a state holding
    the inputs' as they were and the output's at `out1_5` of the inputs'. -/
theorem sound_kernel1 (c : Dev nD) (E : Set ℕ) (i : grid1.Coords)
    (a0 : Memref sig .tc .vmem S400x10000 .f32) (h0 : a0.IsWhole) (a1 : Memref sig .tc .vmem S10000x128 .f32) (h1 : a1.IsWhole)
    (a2 : Memref sig .tc .vmem S400x128 .f32) (h2 : a2.IsWhole) (a3 : Memref sig .tc .vmem S400x128 .f32) (h3 : a3.IsWhole)
    (a4 : Memref sig .tc .vmem S128x128 .f32) (h4 : a4.IsWhole) (a5 : Memref sig .tc .vmem S400x384 .f32) (h5 : a5.IsWhole)
    (x0 : Vec F S400x10000 .f32) (x1 : Vec F S10000x128 .f32) (x2 : Vec F S400x128 .f32) (x3 : Vec F S400x128 .f32)
    (x4 : Vec F S128x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4
        ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__pass2 i a0 h0 a1 h1 a2 h2 a3 h3 a4 h4 a5 h5) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _ _ _)

/-! ## The launch's proof data -/

/-- The proof data on core `c`: the arrays as the launch finds them; after the body at point `t` every input buffer
    at its block and every output buffer at the body's stores over the input blocks; the invariant carries only the scoped
    buffers the launch does not stage and the generator register; nothing owed. An array handed to two input windows is
    held half by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4

  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.LibShares.lean ====
/-
  Splitting along the halves of a tree share, iterated.

  A positive tree share `q` is the composite of its two halves `q.left` and `q.right`; halving each half again, and so on
  `n` times, cuts `q` into `2 ^ n` leaves. Any family of assertions `Φ` indexed by shares that splits along the two
  halves of every share (`Φ q = Φ q.left ∗ Φ q.right`) therefore splits into the `2 ^ n` leaves of the depth-`n` halving
  (`leaves`). A points-to is such a family (`pointsTo_halves`), and the separating conjunction of two such families is one
  again (`sep_halves`), so a bundle of points-to's splits at once.
-/
import Idealize.ShloMosaic.Rules.PointsTo

noncomputable section

namespace Cert.LibShares

open Idealize.ShloMosaic
open Idealize.SL Idealize.SL.RA Idealize.SL.BI
open scoped Idealize.SL.BI
open Idealize.SL.BI.BIBase Idealize.SL.BI.Laws

universe u

/-- Leaf `i` of the depth-`n` halving of the share `q`: at depth 0 the share itself; at depth `n + 1` the first `2 ^ n`
    leaves are those of the left half, the remaining `2 ^ n` those of the right half. -/
def leaf : (n : ℕ) → PosShare TreeShare → Fin (2 ^ n) → PosShare TreeShare
  | 0, q, _ => q
  | n + 1, q, i =>
    if h : i.val < 2 ^ n then leaf n q.left ⟨i.val, h⟩
    else leaf n q.right ⟨i.val - 2 ^ n, by have := i.isLt; have h2 := pow_succ 2 n; omega⟩

/-- The `2 ^ (n + 1)` leaf numbers are the `2 ^ n` of the left half followed by the `2 ^ n` of the right half. -/
def halves (n : ℕ) : Fin (2 ^ n) ⊕ Fin (2 ^ n) ≃ Fin (2 ^ (n + 1)) :=
  finSumFinEquiv.trans (finCongr (by rw [pow_succ]; omega))

theorem halves_inl_val (n : ℕ) (a : Fin (2 ^ n)) : (halves n (.inl a)).val = a.val := by
  simp [halves]

theorem halves_inr_val (n : ℕ) (b : Fin (2 ^ n)) : (halves n (.inr b)).val = 2 ^ n + b.val := by
  simp [halves]; omega

theorem leaf_succ_inl (n : ℕ) (q : PosShare TreeShare) (a : Fin (2 ^ n)) :
    leaf (n + 1) q (halves n (.inl a)) = leaf n q.left a := by
  have h : (halves n (.inl a)).val < 2 ^ n := by rw [halves_inl_val]; exact a.isLt
  rw [leaf, dif_pos h]
  congr 1

theorem leaf_succ_inr (n : ℕ) (q : PosShare TreeShare) (b : Fin (2 ^ n)) :
    leaf (n + 1) q (halves n (.inr b)) = leaf n q.right b := by
  have h : ¬ (halves n (.inr b)).val < 2 ^ n := by rw [halves_inr_val]; omega
  rw [leaf, dif_neg h]
  congr 1
  apply Fin.ext
  show (halves n (.inr b)).val - 2 ^ n = b.val
  rw [halves_inr_val]; omega

/-- **A family that splits along the halves of every share splits into the leaves of the depth-`n` halving.** -/
theorem leaves {M : Type u} [URA M] (Φ : PosShare TreeShare → sProp M)
    (hΦ : ∀ q, Φ q = iprop(Φ q.left ∗ Φ q.right)) :
    ∀ (n : ℕ) (q : PosShare TreeShare), Φ q = bigSep Finset.univ fun i : Fin (2 ^ n) => Φ (leaf n q i) := by
  intro n
  induction n with
  | zero =>
    intro q
    haveI : Subsingleton (Fin (2 ^ 0)) := by rw [pow_zero]; infer_instance
    rw [bigSep_univ_of_subsingleton (⟨0, by simp⟩ : Fin (2 ^ 0))]
    rfl
  | succ n ih =>
    intro q
    rw [bigSep_univ_equiv (halves n) (fun i : Fin (2 ^ (n + 1)) => Φ (leaf (n + 1) q i)), bigSep_univ_sum]
    simp only [leaf_succ_inl, leaf_succ_inr]
    rw [← ih q.left, ← ih q.right]
    exact hΦ q

section PointsTo
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl
variable {ℓ : Loc nD τ sig} {I : Finset (Idx ℓ)} {q : PosShare TreeShare} {f : Buf Val ℓ}

/-- A points-to at a share is the points-to at its left half beside the points-to at its right half. -/
theorem pointsTo_halves :
    (ℓ ↦[I]{q} f : sProp 𝕄) = iprop((ℓ ↦[I]{q.left} f) ∗ (ℓ ↦[I]{q.right} f)) :=
  have h : (ℓ ↦[I]{q} f : sProp 𝕄) ⊣⊢ iprop((ℓ ↦[I]{q.left} f) ∗ (ℓ ↦[I]{q.right} f)) :=
    pointsTo_share (PosShare.mem_left_op_right q)
  BI.equiv_iff.mp ⟨h.1, h.2⟩

end PointsTo

/-- The separating conjunction of two families that split along the halves of every share splits along them too. -/
theorem sep_halves {M : Type u} [URA M] (Φ Ψ : PosShare TreeShare → sProp M)
    (hΦ : ∀ q, Φ q = iprop(Φ q.left ∗ Φ q.right)) (hΨ : ∀ q, Ψ q = iprop(Ψ q.left ∗ Ψ q.right)) :
    ∀ q, iprop(Φ q ∗ Ψ q) = iprop(iprop(Φ q.left ∗ Ψ q.left) ∗ iprop(Φ q.right ∗ Ψ q.right)) := by
  intro q
  have h : iprop((Φ q.left ∗ Φ q.right) ∗ (Ψ q.left ∗ Ψ q.right))
      ⊣⊢ iprop((Φ q.left ∗ Ψ q.left) ∗ (Φ q.right ∗ Ψ q.right)) := sep_sep_sep_comm
  calc iprop(Φ q ∗ Ψ q) = iprop(iprop(Φ q.left ∗ Φ q.right) ∗ iprop(Ψ q.left ∗ Ψ q.right)) := by rw [← hΦ q, ← hΨ q]
    _ = _ := BI.equiv_iff.mp ⟨h.1, h.2⟩

end Cert.LibShares

end
-- ==== Proof.BitsRun.lean ====
/-
  The run of the whole program: four host operations, the first launch, the second launch.

  Between two items every unscoped buffer of the core is held whole at a known valuation: the launch memory, then what the
  host operations write, then the first launch's two results at what its write-backs leave, then the second launch's
  result likewise. Each launch takes its windows' arrays out of that valuation and puts them back; the one array that
  two input windows of a launch read (the features in the first launch, the first convolution in the second) is
  lent to the two windows by halves of the full share and recombined at the exit. The run ends with every unscoped buffer
  at the last valuation, so each argument is as launched and the result is what the second launch's write-backs leave.
-/
import proofs.«145658_g5471788335182_cont_9to1c4b_211_5_alg».proof.Proof.BitsBody1
import proofs.«145658_g5471788335182_cont_9to1c4b_211_5_alg».proof.Proof.Gen.Kernel.Regions
import proofs.«145658_g5471788335182_cont_9to1c4b_211_5_alg».proof.Proof.LibShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between items -/

/-- The first launch's entry contents, read at the core's references. -/
abbrev E1 : (c : Dev nD) → (b : Ref sig .tc) → Buf (Elt F) ((c : Thread nD τ).loc b) := fun c b => Gen.V1 m c b

/-- After the first launch: its two results at what its write-backs leave, every other buffer as entered. -/
def W2 (c : Dev nD) : Valuation τ sig (Elt F) :=
  Function.update (Function.update (Gen.V1 m c) main_v4_0 ((dat0 (E1 m) c).arrAt 8 cfg0.N : Buf (Elt F) ((c : Thread nD τ).loc main_v4_0)))
    main_v4_1 ((dat0 (E1 m) c).arrAt 9 cfg0.N : Buf (Elt F) ((c : Thread nD τ).loc main_v4_1))

/-- The second launch's entry contents, read at the core's references. -/
abbrev E2 : (c : Dev nD) → (b : Ref sig .tc) → Buf (Elt F) ((c : Thread nD τ).loc b) := fun c b => W2 m c b

/-- After the second launch: its result at what its write-backs leave, every other buffer as entered. -/
def W3 (c : Dev nD) : Valuation τ sig (Elt F) :=
  Function.update (W2 m c) main_v5 ((dat1 (E2 m) c).arrAt 5 cfg1.N : Buf (Elt F) ((c : Thread nD τ).loc main_v5))

abbrev E3 : (c : Dev nD) → (b : Ref sig .tc) → Buf (Elt F) ((c : Thread nD τ).loc b) := fun c b => W3 m c b

theorem W2_of (c : Dev nD) (r : Ref sig .tc) (h : r ∉ ([main_v4_0, main_v4_1] : List (Ref sig .tc))) : W2 m c r = Gen.V1 m c r := by
  simp only [W2, Function.update_of_ne (StableHlo.devRef_ne_of_ne (List.ne_of_not_mem_cons h) : (Proc.devRef .tc r : DevRef τ sig) ≠ Proc.devRef .tc main_v4_0), Function.update_of_ne (StableHlo.devRef_ne_of_ne (List.ne_of_not_mem_cons (List.not_mem_of_not_mem_cons h)) : (Proc.devRef .tc r : DevRef τ sig) ≠ Proc.devRef .tc main_v4_1)]
theorem W3_of (c : Dev nD) (r : Ref sig .tc) (h : r ∉ ([main_v5] : List (Ref sig .tc))) : W3 m c r = W2 m c r := by
  simp only [W3, Function.update_of_ne (StableHlo.devRef_ne_of_ne (List.ne_of_not_mem_cons h) : (Proc.devRef .tc r : DevRef τ sig) ≠ Proc.devRef .tc main_v5)]
theorem W2_v4_0 (c : Dev nD) : W2 m c main_v4_0 = (dat0 (E1 m) c).arrAt 8 cfg0.N := by
  unfold W2
  rw [Function.update_of_ne (StableHlo.devRef_ne_of_ne (by decide) : (Proc.devRef .tc main_v4_0 : DevRef τ sig) ≠ Proc.devRef .tc main_v4_1), Function.update_self]
theorem W2_v4_1 (c : Dev nD) : W2 m c main_v4_1 = (dat0 (E1 m) c).arrAt 9 cfg0.N := by
  unfold W2; rw [Function.update_self]
theorem W3_v5 (c : Dev nD) : W3 m c main_v5 = (dat1 (E2 m) c).arrAt 5 cfg1.N := by
  unfold W3; rw [Function.update_self]

/-! ## Launch 0: its arrays out of the core's unscoped buffers and back; one array read through two windows -/

section Shares0
variable (V : (c : Dev nD) → (b : Ref sig .tc) → Buf (Elt F) ((c : Thread nD τ).loc b))

/-- The distinct buffers behind launch 0's windows, each whole at the full share. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1) ∗ (((c : Thread nD τ).loc main_arg2) ↦{fullShare} V' main_arg2) ∗ (((c : Thread nD τ).loc main_v2) ↦{fullShare} V' main_v2) ∗ (((c : Thread nD τ).loc main_v0) ↦{fullShare} V' main_v0) ∗ (((c : Thread nD τ).loc main_v3) ↦{fullShare} V' main_v3) ∗ (((c : Thread nD τ).loc main_v1) ↦{fullShare} V' main_v1) ∗ (((c : Thread nD τ).loc main_v4_0) ↦{fullShare} V' main_v4_0) ∗ (((c : Thread nD τ).loc main_v4_1) ↦{fullShare} V' main_v4_1)) := by
  unfold Pipeline.arrBufs
  exact bigSep_eq_bigSepL_of_eq [main_arg0, main_arg1, main_arg2, main_v2, main_v0, main_v3, main_v1, main_v4_0, main_v4_1] (by decide) (by decide) _

/-- The proof data's arrays, window by window: the array two windows read is held half by each. -/
theorem arrays0_eq (c : Dev nD) (Fw : (w : Fin cfg0.W) → Buf (Elt F) ((cfg0.win w).arr.view.loc (c : Thread nD τ))) :
    ((dat0 V c).arrays Fw : sProp 𝕄)
      = iprop((((c : Thread nD τ).loc main_arg0) ↦{fullShare} Fw 0) ∗ (((c : Thread nD τ).loc main_arg1) ↦{(fullShare : PosShare TreeShare).left} Fw 1) ∗ (((c : Thread nD τ).loc main_arg1) ↦{(fullShare : PosShare TreeShare).right} Fw 2) ∗ (((c : Thread nD τ).loc main_arg2) ↦{fullShare} Fw 3) ∗ (((c : Thread nD τ).loc main_v2) ↦{fullShare} Fw 4) ∗ (((c : Thread nD τ).loc main_v0) ↦{fullShare} Fw 5) ∗ (((c : Thread nD τ).loc main_v3) ↦{fullShare} Fw 6) ∗ (((c : Thread nD τ).loc main_v1) ↦{fullShare} Fw 7) ∗ (((c : Thread nD τ).loc main_v4_0) ↦{fullShare} Fw 8) ∗ (((c : Thread nD τ).loc main_v4_1) ↦{fullShare} Fw 9)) := by
  have e : ∀ w : Fin cfg0.W, ((cfg0.win w).arr.view.loc (c : Thread nD τ) ↦[(cfg0.win w).arr.view.set]{(dat0 V c).share w} Fw w : sProp 𝕄)
      = ((cfg0.win w).arr.view.loc (c : Thread nD τ) ↦{(dat0 V c).share w} Fw w) := fun w => by rw [(arr_whole0 w).set_eq_univ]
  unfold Dat.arrays
  rw [bigSep_congr (fun w _ => e w), bigSep_W0]
  rfl

/-- Entry: the whole buffers make the windows' arrays, the shared array split in halves. -/
theorem enter0 (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊢ (dat0 V c).arrays (fun w => V' (Pipeline.arrRef spec0 w)) := by
  rw [arrBufs0_eq, arrays0_eq]
  have hh : ((((c : Thread nD τ).loc main_arg1) ↦{fullShare} V' main_arg1) : sProp 𝕄)
      ⊢ iprop((((c : Thread nD τ).loc main_arg1) ↦{(fullShare : PosShare TreeShare).left} V' main_arg1) ∗ (((c : Thread nD τ).loc main_arg1) ↦{(fullShare : PosShare TreeShare).right} V' main_arg1)) :=
    Entails.of_eq Cert.LibShares.pointsTo_halves
  iintro ⟨H0, H1, H2, H3, H4, H5, H6, H7, H8⟩
  ihave Hh := hh $$ H1
  icases Hh with ⟨H1a, H1b⟩
  isplitl [H0]; · iexact H0
  isplitl [H1a]; · iexact H1a
  isplitl [H1b]; · iexact H1b
  isplitl [H2]; · iexact H2
  isplitl [H3]; · iexact H3
  isplitl [H4]; · iexact H4
  isplitl [H5]; · iexact H5
  isplitl [H6]; · iexact H6
  isplitl [H7]; · iexact H7
  iexact H8

/-- Exit: the windows' arrays make the whole buffers again, the two halves rejoined. -/
theorem leave0 (c : Dev nD) (V' : (b : Ref sig .tc) → Buf (Elt F) ((c : Thread nD τ).loc b)) :
    ((dat0 V c).arrays (fun w => V' (Pipeline.arrRef spec0 w)) : sProp 𝕄)
      ⊢ Pipeline.arrBufs (Ix := Unit) (Name := ℕ) (U := UR sig nD τ) (Lvl := ℕ) spec0 c V' := by
  rw [arrBufs0_eq, arrays0_eq]
  have hh : iprop((((c : Thread nD τ).loc main_arg1) ↦{(fullShare : PosShare TreeShare).left} V' main_arg1) ∗ (((c : Thread nD τ).loc main_arg1) ↦{(fullShare : PosShare TreeShare).right} V' main_arg1))
      ⊢ ((((c : Thread nD τ).loc main_arg1) ↦{fullShare} V' main_arg1) : sProp 𝕄) :=
    Entails.of_eq Cert.LibShares.pointsTo_halves.symm
  iintro ⟨G0, G1, G2, G3, G4, G5, G6, G7, G8, G9⟩
  ihave H1 := hh $$ [G1 G2]
  · isplitl [G1]; · iexact G1
    iexact G2
  isplitl [G0]; · iexact G0
  isplitl [H1]; · iexact H1
  isplitl [G3]; · iexact G3
  isplitl [G4]; · iexact G4
  isplitl [G5]; · iexact G5
  isplitl [G6]; · iexact G6
  isplitl [G7]; · iexact G7
  isplitl [G8]; · iexact G8
  iexact G9

/-- The core's unscoped buffers at a valuation are launch 0's arrays and the rest. -/
theorem split0 (c : Dev nD) (W : Valuation τ sig (Elt F)) :
    (StableHlo.held (c : Thread nD τ) (Pipeline.ucRefs τ sig) W : sProp 𝕄)
      ⊢ iprop((dat0 V c).arrays (fun w => W (Pipeline.arrRef spec0 w))
          ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W,
    Pipeline.unscopedBufs_split₀ cfgs 0 winFacts₀0.arr_unscoped c (fun b => W b)]
  exact sep_mono (enter0 V c (fun b => W b)) .rfl

/-- Launch 0's arrays at contents `W'` has them at and the rest at `W` are the core's unscoped buffers at `W'`, when
    `W'` agrees with `W` off the arrays. -/
theorem join0 (c : Dev nD) (W W' : Valuation τ sig (Elt F))
    (hrest : ∀ b : Ref sig .tc, b ∉ Finset.univ.image (Pipeline.arrRef spec0) → W' b = W b) :
    iprop((dat0 V c).arrays (fun w => W' (Pipeline.arrRef spec0 w))
          ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split₀ cfgs 0 winFacts₀0.arr_unscoped c (fun b => W' b)]
  refine sep_mono (leave0 V c (fun b => W' b)) (Entails.of_eq ?_)
  unfold Pipeline.unscopedRest
  exact bigSep_congr fun b hb => by dsimp only; rw [hrest b (Finset.mem_sdiff.mp hb).2]

end Shares0

/-! ## Launch 1: its arrays out of the core's unscoped buffers and back; one array read through two windows -/

section Shares1
variable (V : (c : Dev nD) → (b : Ref sig .tc) → Buf (Elt F) ((c : Thread nD τ).loc b))

/-- The distinct buffers behind launch 1's windows, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg0) ↦{fullShare} V' main_arg0) ∗ (((c : Thread nD τ).loc main_v4_0) ↦{fullShare} V' main_v4_0) ∗ (((c : Thread nD τ).loc main_v4_1) ↦{fullShare} V' main_v4_1) ∗ (((c : Thread nD τ).loc main_arg3) ↦{fullShare} V' main_arg3) ∗ (((c : Thread nD τ).loc main_v5) ↦{fullShare} V' main_v5)) := by
  unfold Pipeline.arrBufs
  exact bigSep_eq_bigSepL_of_eq [main_arg0, main_v4_0, main_v4_1, main_arg3, main_v5] (by decide) (by decide) _

/-- The proof data's arrays, window by window: the array two windows read is held half by each. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_arg0) ↦{fullShare} Fw 0) ∗ (((c : Thread nD τ).loc main_v4_0) ↦{(fullShare : PosShare TreeShare).left} Fw 1) ∗ (((c : Thread nD τ).loc main_v4_0) ↦{(fullShare : PosShare TreeShare).right} Fw 2) ∗ (((c : Thread nD τ).loc main_v4_1) ↦{fullShare} Fw 3) ∗ (((c : Thread nD τ).loc main_arg3) ↦{fullShare} Fw 4) ∗ (((c : Thread nD τ).loc main_v5) ↦{fullShare} Fw 5)) := by
  have e : ∀ w : Fin cfg1.W, ((cfg1.win w).arr.view.loc (c : Thread nD τ) ↦[(cfg1.win w).arr.view.set]{(dat1 V c).share w} Fw w : sProp 𝕄)
      = ((cfg1.win w).arr.view.loc (c : Thread nD τ) ↦{(dat1 V c).share w} Fw w) := fun w => by rw [(arr_whole1 w).set_eq_univ]
  unfold Dat.arrays
  rw [bigSep_congr (fun w _ => e w), bigSep_W1]
  rfl

/-- Entry: the whole buffers make the windows' arrays, the shared array split in halves. -/
theorem enter1 (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      ⊢ (dat1 V c).arrays (fun w => V' (Pipeline.arrRef spec1 w)) := by
  rw [arrBufs1_eq, arrays1_eq]
  have hh : ((((c : Thread nD τ).loc main_v4_0) ↦{fullShare} V' main_v4_0) : sProp 𝕄)
      ⊢ iprop((((c : Thread nD τ).loc main_v4_0) ↦{(fullShare : PosShare TreeShare).left} V' main_v4_0) ∗ (((c : Thread nD τ).loc main_v4_0) ↦{(fullShare : PosShare TreeShare).right} V' main_v4_0)) :=
    Entails.of_eq Cert.LibShares.pointsTo_halves
  iintro ⟨H0, H1, H2, H3, H4⟩
  ihave Hh := hh $$ H1
  icases Hh with ⟨H1a, H1b⟩
  isplitl [H0]; · iexact H0
  isplitl [H1a]; · iexact H1a
  isplitl [H1b]; · iexact H1b
  isplitl [H2]; · iexact H2
  isplitl [H3]; · iexact H3
  iexact H4

/-- Exit: the windows' arrays make the whole buffers again, the two halves rejoined. -/
theorem leave1 (c : Dev nD) (V' : (b : Ref sig .tc) → Buf (Elt F) ((c : Thread nD τ).loc b)) :
    ((dat1 V c).arrays (fun w => V' (Pipeline.arrRef spec1 w)) : sProp 𝕄)
      ⊢ Pipeline.arrBufs (Ix := Unit) (Name := ℕ) (U := UR sig nD τ) (Lvl := ℕ) spec1 c V' := by
  rw [arrBufs1_eq, arrays1_eq]
  have hh : iprop((((c : Thread nD τ).loc main_v4_0) ↦{(fullShare : PosShare TreeShare).left} V' main_v4_0) ∗ (((c : Thread nD τ).loc main_v4_0) ↦{(fullShare : PosShare TreeShare).right} V' main_v4_0))
      ⊢ ((((c : Thread nD τ).loc main_v4_0) ↦{fullShare} V' main_v4_0) : sProp 𝕄) :=
    Entails.of_eq Cert.LibShares.pointsTo_halves.symm
  iintro ⟨G0, G1, G2, G3, G4, G5⟩
  ihave H1 := hh $$ [G1 G2]
  · isplitl [G1]; · iexact G1
    iexact G2
  isplitl [G0]; · iexact G0
  isplitl [H1]; · iexact H1
  isplitl [G3]; · iexact G3
  isplitl [G4]; · iexact G4
  iexact G5

/-- The core's unscoped buffers at a valuation are launch 1's arrays and the rest. -/
theorem split1 (c : Dev nD) (W : Valuation τ sig (Elt F)) :
    (StableHlo.held (c : Thread nD τ) (Pipeline.ucRefs τ sig) W : sProp 𝕄)
      ⊢ iprop((dat1 V c).arrays (fun w => W (Pipeline.arrRef spec1 w))
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W,
    Pipeline.unscopedBufs_split₀ cfgs 1 winFacts₀1.arr_unscoped c (fun b => W b)]
  exact sep_mono (enter1 V c (fun b => W b)) .rfl

/-- Launch 1's arrays at contents `W'` has them at and the rest at `W` are the core's unscoped buffers at `W'`, when
    `W'` agrees with `W` off the arrays. -/
theorem join1 (c : Dev nD) (W W' : Valuation τ sig (Elt F))
    (hrest : ∀ b : Ref sig .tc, b ∉ Finset.univ.image (Pipeline.arrRef spec1) → W' b = W b) :
    iprop((dat1 V c).arrays (fun w => W' (Pipeline.arrRef spec1 w))
          ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split₀ cfgs 1 winFacts₀1.arr_unscoped c (fun b => W' b)]
  refine sep_mono (leave1 V c (fun b => W' b)) (Entails.of_eq ?_)
  unfold Pipeline.unscopedRest
  exact bigSep_congr fun b hb => by dsimp only; rw [hrest b (Finset.mem_sdiff.mp hb).2]

end Shares1

/-! ## What each launch leaves, window by window -/

/-- After the first launch every window's array is the valuation `W2` there: an input array was not written, an output
    array is what the write-backs leave. -/
theorem hF0 (c : Dev nD) (w : Fin cfg0.W) : (dat0 (E1 m) c).arrAt w cfg0.N = W2 m c (Pipeline.arrRef spec0 w) := by
  match w with
  | ⟨0, _⟩ => exact (((dat0 (E1 m) c).arrAt_in 0 rfl _).trans (A_eq0 (E1 m) c 0)).trans (W2_of m c _ (by decide)).symm
  | ⟨1, _⟩ => exact (((dat0 (E1 m) c).arrAt_in 1 rfl _).trans (A_eq0 (E1 m) c 1)).trans (W2_of m c _ (by decide)).symm
  | ⟨2, _⟩ => exact (((dat0 (E1 m) c).arrAt_in 2 rfl _).trans (A_eq0 (E1 m) c 2)).trans (W2_of m c _ (by decide)).symm
  | ⟨3, _⟩ => exact (((dat0 (E1 m) c).arrAt_in 3 rfl _).trans (A_eq0 (E1 m) c 3)).trans (W2_of m c _ (by decide)).symm
  | ⟨4, _⟩ => exact (((dat0 (E1 m) c).arrAt_in 4 rfl _).trans (A_eq0 (E1 m) c 4)).trans (W2_of m c _ (by decide)).symm
  | ⟨5, _⟩ => exact (((dat0 (E1 m) c).arrAt_in 5 rfl _).trans (A_eq0 (E1 m) c 5)).trans (W2_of m c _ (by decide)).symm
  | ⟨6, _⟩ => exact (((dat0 (E1 m) c).arrAt_in 6 rfl _).trans (A_eq0 (E1 m) c 6)).trans (W2_of m c _ (by decide)).symm
  | ⟨7, _⟩ => exact (((dat0 (E1 m) c).arrAt_in 7 rfl _).trans (A_eq0 (E1 m) c 7)).trans (W2_of m c _ (by decide)).symm
  | ⟨8, _⟩ => exact (W2_v4_0 m c).symm
  | ⟨9, _⟩ => exact (W2_v4_1 m c).symm
theorem hrest0 (c : Dev nD) : ∀ b : Ref sig .tc, b ∉ Finset.univ.image (Pipeline.arrRef spec0) → W2 m c b = Gen.V1 m c b := fun b hb =>
  W2_of m c b (fun h => by
    rcases List.mem_cons.mp h with rfl | h
    · exact hb (Finset.mem_image.mpr ⟨8, Finset.mem_univ _, rfl⟩)
    · rcases List.mem_cons.mp h with rfl | h
      · exact hb (Finset.mem_image.mpr ⟨9, Finset.mem_univ _, rfl⟩)
      · exact absurd h List.not_mem_nil)

/-- After the second launch likewise, at `W3`. -/
theorem hF1 (c : Dev nD) (w : Fin cfg1.W) : (dat1 (E2 m) c).arrAt w cfg1.N = W3 m c (Pipeline.arrRef spec1 w) := by
  match w with
  | ⟨0, _⟩ => exact (((dat1 (E2 m) c).arrAt_in 0 rfl _).trans (A_eq1 (E2 m) c 0)).trans (W3_of m c _ (by decide)).symm
  | ⟨1, _⟩ => exact (((dat1 (E2 m) c).arrAt_in 1 rfl _).trans (A_eq1 (E2 m) c 1)).trans (W3_of m c _ (by decide)).symm
  | ⟨2, _⟩ => exact (((dat1 (E2 m) c).arrAt_in 2 rfl _).trans (A_eq1 (E2 m) c 2)).trans (W3_of m c _ (by decide)).symm
  | ⟨3, _⟩ => exact (((dat1 (E2 m) c).arrAt_in 3 rfl _).trans (A_eq1 (E2 m) c 3)).trans (W3_of m c _ (by decide)).symm
  | ⟨4, _⟩ => exact (((dat1 (E2 m) c).arrAt_in 4 rfl _).trans (A_eq1 (E2 m) c 4)).trans (W3_of m c _ (by decide)).symm
  | ⟨5, _⟩ => exact (W3_v5 m c).symm
theorem hrest1 (c : Dev nD) : ∀ b : Ref sig .tc, b ∉ Finset.univ.image (Pipeline.arrRef spec1) → W3 m c b = W2 m c b := fun b hb =>
  W3_of m c b (fun h => by
    rcases List.mem_cons.mp h with rfl | h
    · exact hb (Finset.mem_image.mpr ⟨5, Finset.mem_univ _, rfl⟩)
    · exact absurd h List.not_mem_nil)

/-! ## The proof data family and the thread state -/

/-- Every launch's proof data, each at its launch's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last valuation, the generator register at some state. -/
abbrev Tₙ (c : Dev nD) : sProp 𝕄 := iprop(StableHlo.held (c : Thread nD τ) (Pipeline.ucRefs τ sig) (W3 m c) ∗ ∃ r, prngReg c r)

/-! ## The launches as segments -/

set_option backward.isDefEq.respectTransparency.types false in
/-- Launch 0 over the thread state: entered with every unscoped buffer at the valuation before it, left with them at the
    valuation after it. Its arrays come out of the unscoped buffers at entry (the twice-read array in halves) and go back
    at the exit contents; the generator register passes through the invariant; nothing is owed; the kernel has no
    semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := split0 (E1 m) c (Gen.V1 m c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join0 (E1 m) c (Gen.V1 m c) (W2 m c) (hrest0 m c)
    rw [← show (fun w => (dat0 (E1 m) c).arrAt w cfg0.N) = (fun w => W2 m c (Pipeline.arrRef spec0 w)) from funext (hF0 m c)] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the valuation before it, left with them at the
    valuation after it. Its arrays come out of the unscoped buffers at entry (the twice-read array in halves) and go back
    at the exit contents; the generator register passes through the invariant; nothing is owed; the kernel has no
    semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := split1 (E2 m) c (W2 m c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 (E2 m) c (W2 m c) (W3 m c) (hrest1 m c)
    rw [← show (fun w => (dat1 (E2 m) c).arrAt w cfg1.N) = (fun w => W3 m c (Pipeline.arrRef spec1 w)) from funext (hF1 m c)] at hjoin
    iintro ⟨Ha, HO, HY, Hrest⟩
    imodintro
    isplitl [Ha Hrest HY]
    · isplitl [Ha Hrest]
      · iapply hjoin; isplitl [Ha]
        · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg hostOps0 hostOps0_sub hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final memory holds each unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- Each argument array ends as launched: no host operation writes it and no launch may change it. -/
theorem W3_arg (c : Dev nD) (r : Ref sig .tc) (h3 : r ∉ ([main_v5] : List (Ref sig .tc))) (h2 : r ∉ ([main_v4_0, main_v4_1] : List (Ref sig .tc)))
    (h1 : r ∉ Gen.hostOps0_W) : W3 m c r = m ((c : Thread nD τ).loc r) :=
  (W3_of m c r h3).trans <| (W2_of m c r h2).trans <| (Gen.V1_of m c r h1).trans rfl

/-- The frame: the program runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide)),
     (h c _ (mem_uc main_arg5 (by decide))).trans (W3_arg m c main_arg5 (by decide) (by decide) (by decide)),
     (h c _ (mem_uc main_arg6 (by decide))).trans (W3_arg m c main_arg6 (by decide) (by decide) (by decide)),
     (h c _ (mem_uc main_arg7 (by decide))).trans (W3_arg m c main_arg7 (by decide) (by decide) (by decide))⟩) (run_all m ρ)

/-- The same run with the result named: it ends at what the second launch's write-backs leave. -/
theorem run_value : θ_run defs (onTc (τ := τ) (main (F := F))) ⟨m, fun _ => 0, ρ⟩ (fun r => ∀ c : Dev nD,
      r.2.mem ((c.tc : Thread nD τ).loc main_v5) = (dat1 (E2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5 (by decide))).trans (W3_v5 m c),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide)),
     (h c _ (mem_uc main_arg5 (by decide))).trans (W3_arg m c main_arg5 (by decide) (by decide) (by decide)),
     (h c _ (mem_uc main_arg6 (by decide))).trans (W3_arg m c main_arg6 (by decide) (by decide) (by decide)),
     (h c _ (mem_uc main_arg7 (by decide))).trans (W3_arg m c main_arg7 (by decide) (by decide) (by decide))⟩) (run_all m ρ)

end Cert.Kernel.Hand

end
-- ==== Proof.IdealBody0.lean ====
/-
  First launch, the body's side. At every grid point the body reads its eight input blocks whole, stores the first
  convolution's block (a function of the adjacency stripe, the whole feature matrix and the weight) over the whole of
  output buffer 8 and the self path's block (a function of the feature rows, the two transposed linear weights and the
  two bias rows) over the whole of output buffer 9; it keeps nothing between points. Stated at a parameter `V`: the
  contents of the core's arrays when the launch is entered.
-/
import proofs.«145658_g5471788335182_cont_9to1c4b_211_5_alg».proof.Proof.Gen.KernelIdeal.Launch
import proofs.«145658_g5471788335182_cont_9to1c4b_211_5_alg».proof.Proof.Gen.KernelIdeal.Skeleton
import proofs.«145658_g5471788335182_cont_9to1c4b_211_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: an unfetched window's block
    index has not moved, and the body leaves every input buffer as it found it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every access is a whole buffer -/

abbrev rA : Rect S400x10000 := Rect.unit (s := S400x10000) ![0, 0] S400x10000.size inb_S400x10000_S400x10000_0_0
abbrev rB : Rect S10000x128 := Rect.unit (s := S10000x128) ![0, 0] S10000x128.size inb_S10000x128_S10000x128_0_0
abbrev rC : Rect S400x128 := Rect.unit (s := S400x128) ![0, 0] S400x128.size inb_S400x128_S400x128_0_0
abbrev rD : Rect S128x128 := Rect.unit (s := S128x128) ![0, 0] S128x128.size inb_S128x128_S128x128_0_0
abbrev rE : Rect S1x128 := Rect.unit (s := S1x128) ![0, 0] S1x128.size inb_S1x128_S1x128_0_0

/-- Output buffer 8 after the body: the one store of the first convolution's block. -/
def out0_8 (x0 : Vec F S400x10000 .f32) (x1 : Vec F S10000x128 .f32) (x3 : Vec F S128x128 .f32) : Vec F S400x128 .f32 :=
  View.canon [⟨rC, k0_pay1 (View.ld x0 rA) (View.ld x1 rB) (View.ld x3 rD)⟩]

/-- Output buffer 9 after the body: the one store of the self path's block. -/
def out0_9 (x2 : Vec F S400x128 .f32) (x4 : Vec F S128x128 .f32) (x5 : Vec F S1x128 .f32) (x6 : Vec F S128x128 .f32) (x7 : Vec F S1x128 .f32) : Vec F S400x128 .f32 :=
  View.canon [⟨rC, k0_pay2 (View.ld x2 rC) (View.ld x4 rD) (View.ld x5 rE) (View.ld x6 rD) (View.ld x7 rE)⟩]

/-- A whole-buffer store covers the buffer. -/
theorem coverC (p0 : Vec F S400x128 .f32) (y : S400x128.Idx) :
    ∃ pc ∈ ([⟨rC, p0⟩] : List (View.Piece (Elt F) S400x128 .f32)), y ∈ pc.1.set :=
  View.cover_of_tiled [⟨rC, p0⟩] S400x128.size (by rfl) y

set_option maxHeartbeats 1000000 in
/-- The body on whole staging memrefs, the inputs' at contents `xW` and the outputs' at anything, runs to a state holding
    the inputs' as they were and the two outputs' at `out0_8`, `out0_9` of the inputs'. -/
theorem sound_kernel0 (c : Dev nD) (E : Set ℕ) (i : grid0.Coords)
    (a0 : Memref sig .tc .vmem S400x10000 .f32) (h0 : a0.IsWhole) (a1 : Memref sig .tc .vmem S10000x128 .f32) (h1 : a1.IsWhole)
    (a2 : Memref sig .tc .vmem S400x128 .f32) (h2 : a2.IsWhole) (a3 : Memref sig .tc .vmem S128x128 .f32) (h3 : a3.IsWhole)
    (a4 : Memref sig .tc .vmem S128x128 .f32) (h4 : a4.IsWhole) (a5 : Memref sig .tc .vmem S1x128 .f32) (h5 : a5.IsWhole)
    (a6 : Memref sig .tc .vmem S128x128 .f32) (h6 : a6.IsWhole) (a7 : Memref sig .tc .vmem S1x128 .f32) (h7 : a7.IsWhole)
    (a8 : Memref sig .tc .vmem S400x128 .f32) (h8 : a8.IsWhole) (a9 : Memref sig .tc .vmem S400x128 .f32) (h9 : a9.IsWhole)
    (x0 : Vec F S400x10000 .f32) (x1 : Vec F S10000x128 .f32) (x2 : Vec F S400x128 .f32) (x3 : Vec F S128x128 .f32)
    (x4 : Vec F S128x128 .f32) (x5 : Vec F S1x128 .f32) (x6 : Vec F S128x128 .f32) (x7 : Vec F S1x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare (out0_8 x0 x1 x3) ∗ owns (c : Thread nD τ) a9 fullShare (out0_9 x2 x4 x5 x6 x7)) -∗ K ⟨⟩))
      ⊢ wp frame (wpE (defs₀ (F := F)) Variants.none c none) E (cc0__pass1 i a0 h0 a1 h1 a2 h2 a3 h3 a4 h4 a5 h5 a6 h6 a7 h7 a8 h8 a9 h9) K := by
  simp only [cc0__pass1_eq_skeleton]; unfold cc0__pass1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverC _)
  iexists _; isplitr
  swap; · iexact H9
  ipureintro
  exact View.read_writes_eq_canon _ _ _ (coverC _)

/-! ## The launch's proof data -/

/-- The proof data on core `c`: the arrays as the launch finds them; after the body at point `t` every input buffer
    at its block and every output buffer at the body's stores over the input blocks; the invariant carries only the scoped
    buffers the launch does not stage and the generator register; nothing owed. An array handed to two input windows is
    held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 3 t)
    | ⟨9, _⟩ => out0_9 (iblk0 V c 2 t) (iblk0 V c 4 t) (iblk0 V c 5 t) (iblk0 V c 6 t) (iblk0 V c 7 t)
  Φ _ := Pipeline.ΦA spec0 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 3 t) := by dsimp only [dat0]
theorem after0_9 (c : Dev nD) (t : Fin cfg0.N) : (dat0 V c).after 9 t = out0_9 (iblk0 V c 2 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.IdealBody1.lean ====
/-
  Second launch, the body's side. At every grid point the body reads its five input blocks whole and fills output buffer 5,
  a [400,384] block, by three stores side by side: columns 0..127 the self path's rows as read, columns 128..255 the first
  convolution's rows as read, columns 256..383 the second convolution's block (a function of the adjacency stripe, the
  whole first convolution and the second weight). It keeps nothing between points. Stated at a parameter `V`: the contents
  of the core's arrays when the launch is entered.
-/
import proofs.«145658_g5471788335182_cont_9to1c4b_211_5_alg».proof.Proof.IdealBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles -/

abbrev rL : Rect S400x384 := Rect.unit (s := S400x384) ![0, 0] S400x128.size inb_S400x384_S400x128_0_0
abbrev rM : Rect S400x384 := Rect.unit (s := S400x384) ![0, 128] S400x128.size inb_S400x384_S400x128_0_128
abbrev rR : Rect S400x384 := Rect.unit (s := S400x384) ![0, 256] S400x128.size inb_S400x384_S400x128_0_256

/-- Output buffer 5 after the body: its three stores, last first. -/
def out1_5 (x0 : Vec F S400x10000 .f32) (x1 : Vec F S10000x128 .f32) (x2 : Vec F S400x128 .f32) (x3 : Vec F S400x128 .f32) (x4 : Vec F S128x128 .f32) : Vec F S400x384 .f32 :=
  View.canon [⟨rR, k1_pay1 (View.ld x0 rA) (View.ld x1 rB) (View.ld x4 rD)⟩, ⟨rM, k1_pay3 (View.ld x2 rC)⟩, ⟨rL, k1_pay2 (View.ld x3 rC)⟩]

/-- The three column blocks tile the buffer, so the stores cover it. -/
theorem cover1_5 (p0 p1 p2 : Vec F S400x128 .f32) (y : S400x384.Idx) :
    ∃ pc ∈ ([⟨rR, p0⟩, ⟨rM, p1⟩, ⟨rL, p2⟩] : List (View.Piece (Elt F) S400x384 .f32)), y ∈ pc.1.set :=
  View.cover_of_tiled [⟨rR, p0⟩, ⟨rM, p1⟩, ⟨rL, p2⟩] S400x128.size (by rfl) y

set_option maxHeartbeats 1000000 in
/-- The body on whole staging memrefs, the inputs' at contents `xW` and the output's at anything, runs to a state holding
    the inputs' as they were and the output's at `out1_5` of the inputs'. -/
theorem sound_kernel1 (c : Dev nD) (E : Set ℕ) (i : grid1.Coords)
    (a0 : Memref sig .tc .vmem S400x10000 .f32) (h0 : a0.IsWhole) (a1 : Memref sig .tc .vmem S10000x128 .f32) (h1 : a1.IsWhole)
    (a2 : Memref sig .tc .vmem S400x128 .f32) (h2 : a2.IsWhole) (a3 : Memref sig .tc .vmem S400x128 .f32) (h3 : a3.IsWhole)
    (a4 : Memref sig .tc .vmem S128x128 .f32) (h4 : a4.IsWhole) (a5 : Memref sig .tc .vmem S400x384 .f32) (h5 : a5.IsWhole)
    (x0 : Vec F S400x10000 .f32) (x1 : Vec F S10000x128 .f32) (x2 : Vec F S400x128 .f32) (x3 : Vec F S400x128 .f32)
    (x4 : Vec F S128x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4
        ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__pass2 i a0 h0 a1 h1 a2 h2 a3 h3 a4 h4 a5 h5) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _ _ _)

/-! ## The launch's proof data -/

/-- The proof data on core `c`: the arrays as the launch finds them; after the body at point `t` every input buffer
    at its block and every output buffer at the body's stores over the input blocks; the invariant carries only the scoped
    buffers the launch does not stage and the generator register; nothing owed. An array handed to two input windows is
    held half by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4

  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.IdealRun.lean ====
/-
  The run of the whole program: four host operations, the first launch, the second launch.

  Between two items every unscoped buffer of the core is held whole at a known valuation: the launch memory, then what the
  host operations write, then the first launch's two results at what its write-backs leave, then the second launch's
  result likewise. Each launch takes its windows' arrays out of that valuation and puts them back; the one array that
  two input windows of a launch read (the features in the first launch, the first convolution in the second) is
  lent to the two windows by halves of the full share and recombined at the exit. The run ends with every unscoped buffer
  at the last valuation, so each argument is as launched and the result is what the second launch's write-backs leave.
-/
import proofs.«145658_g5471788335182_cont_9to1c4b_211_5_alg».proof.Proof.IdealBody1
import proofs.«145658_g5471788335182_cont_9to1c4b_211_5_alg».proof.Proof.Gen.KernelIdeal.Regions
import proofs.«145658_g5471788335182_cont_9to1c4b_211_5_alg».proof.Proof.LibShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between items -/

/-- The first launch's entry contents, read at the core's references. -/
abbrev E1 : (c : Dev nD) → (b : Ref sig .tc) → Buf (Elt F) ((c : Thread nD τ).loc b) := fun c b => Gen.V1 m c b

/-- After the first launch: its two results at what its write-backs leave, every other buffer as entered. -/
def W2 (c : Dev nD) : Valuation τ sig (Elt F) :=
  Function.update (Function.update (Gen.V1 m c) main_v4_0 ((dat0 (E1 m) c).arrAt 8 cfg0.N : Buf (Elt F) ((c : Thread nD τ).loc main_v4_0)))
    main_v4_1 ((dat0 (E1 m) c).arrAt 9 cfg0.N : Buf (Elt F) ((c : Thread nD τ).loc main_v4_1))

/-- The second launch's entry contents, read at the core's references. -/
abbrev E2 : (c : Dev nD) → (b : Ref sig .tc) → Buf (Elt F) ((c : Thread nD τ).loc b) := fun c b => W2 m c b

/-- After the second launch: its result at what its write-backs leave, every other buffer as entered. -/
def W3 (c : Dev nD) : Valuation τ sig (Elt F) :=
  Function.update (W2 m c) main_v5 ((dat1 (E2 m) c).arrAt 5 cfg1.N : Buf (Elt F) ((c : Thread nD τ).loc main_v5))

abbrev E3 : (c : Dev nD) → (b : Ref sig .tc) → Buf (Elt F) ((c : Thread nD τ).loc b) := fun c b => W3 m c b

theorem W2_of (c : Dev nD) (r : Ref sig .tc) (h : r ∉ ([main_v4_0, main_v4_1] : List (Ref sig .tc))) : W2 m c r = Gen.V1 m c r := by
  simp only [W2, Function.update_of_ne (StableHlo.devRef_ne_of_ne (List.ne_of_not_mem_cons h) : (Proc.devRef .tc r : DevRef τ sig) ≠ Proc.devRef .tc main_v4_0), Function.update_of_ne (StableHlo.devRef_ne_of_ne (List.ne_of_not_mem_cons (List.not_mem_of_not_mem_cons h)) : (Proc.devRef .tc r : DevRef τ sig) ≠ Proc.devRef .tc main_v4_1)]
theorem W3_of (c : Dev nD) (r : Ref sig .tc) (h : r ∉ ([main_v5] : List (Ref sig .tc))) : W3 m c r = W2 m c r := by
  simp only [W3, Function.update_of_ne (StableHlo.devRef_ne_of_ne (List.ne_of_not_mem_cons h) : (Proc.devRef .tc r : DevRef τ sig) ≠ Proc.devRef .tc main_v5)]
theorem W2_v4_0 (c : Dev nD) : W2 m c main_v4_0 = (dat0 (E1 m) c).arrAt 8 cfg0.N := by
  unfold W2
  rw [Function.update_of_ne (StableHlo.devRef_ne_of_ne (by decide) : (Proc.devRef .tc main_v4_0 : DevRef τ sig) ≠ Proc.devRef .tc main_v4_1), Function.update_self]
theorem W2_v4_1 (c : Dev nD) : W2 m c main_v4_1 = (dat0 (E1 m) c).arrAt 9 cfg0.N := by
  unfold W2; rw [Function.update_self]
theorem W3_v5 (c : Dev nD) : W3 m c main_v5 = (dat1 (E2 m) c).arrAt 5 cfg1.N := by
  unfold W3; rw [Function.update_self]

/-! ## Launch 0: its arrays out of the core's unscoped buffers and back; one array read through two windows -/

section Shares0
variable (V : (c : Dev nD) → (b : Ref sig .tc) → Buf (Elt F) ((c : Thread nD τ).loc b))

/-- The distinct buffers behind launch 0's windows, each whole at the full share. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1) ∗ (((c : Thread nD τ).loc main_arg2) ↦{fullShare} V' main_arg2) ∗ (((c : Thread nD τ).loc main_v2) ↦{fullShare} V' main_v2) ∗ (((c : Thread nD τ).loc main_v0) ↦{fullShare} V' main_v0) ∗ (((c : Thread nD τ).loc main_v3) ↦{fullShare} V' main_v3) ∗ (((c : Thread nD τ).loc main_v1) ↦{fullShare} V' main_v1) ∗ (((c : Thread nD τ).loc main_v4_0) ↦{fullShare} V' main_v4_0) ∗ (((c : Thread nD τ).loc main_v4_1) ↦{fullShare} V' main_v4_1)) := by
  unfold Pipeline.arrBufs
  exact bigSep_eq_bigSepL_of_eq [main_arg0, main_arg1, main_arg2, main_v2, main_v0, main_v3, main_v1, main_v4_0, main_v4_1] (by decide) (by decide) _

/-- The proof data's arrays, window by window: the array two windows read is held half by each. -/
theorem arrays0_eq (c : Dev nD) (Fw : (w : Fin cfg0.W) → Buf (Elt F) ((cfg0.win w).arr.view.loc (c : Thread nD τ))) :
    ((dat0 V c).arrays Fw : sProp 𝕄)
      = iprop((((c : Thread nD τ).loc main_arg0) ↦{fullShare} Fw 0) ∗ (((c : Thread nD τ).loc main_arg1) ↦{(fullShare : PosShare TreeShare).left} Fw 1) ∗ (((c : Thread nD τ).loc main_arg1) ↦{(fullShare : PosShare TreeShare).right} Fw 2) ∗ (((c : Thread nD τ).loc main_arg2) ↦{fullShare} Fw 3) ∗ (((c : Thread nD τ).loc main_v2) ↦{fullShare} Fw 4) ∗ (((c : Thread nD τ).loc main_v0) ↦{fullShare} Fw 5) ∗ (((c : Thread nD τ).loc main_v3) ↦{fullShare} Fw 6) ∗ (((c : Thread nD τ).loc main_v1) ↦{fullShare} Fw 7) ∗ (((c : Thread nD τ).loc main_v4_0) ↦{fullShare} Fw 8) ∗ (((c : Thread nD τ).loc main_v4_1) ↦{fullShare} Fw 9)) := by
  have e : ∀ w : Fin cfg0.W, ((cfg0.win w).arr.view.loc (c : Thread nD τ) ↦[(cfg0.win w).arr.view.set]{(dat0 V c).share w} Fw w : sProp 𝕄)
      = ((cfg0.win w).arr.view.loc (c : Thread nD τ) ↦{(dat0 V c).share w} Fw w) := fun w => by rw [(arr_whole0 w).set_eq_univ]
  unfold Dat.arrays
  rw [bigSep_congr (fun w _ => e w), bigSep_W0]
  rfl

/-- Entry: the whole buffers make the windows' arrays, the shared array split in halves. -/
theorem enter0 (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊢ (dat0 V c).arrays (fun w => V' (Pipeline.arrRef spec0 w)) := by
  rw [arrBufs0_eq, arrays0_eq]
  have hh : ((((c : Thread nD τ).loc main_arg1) ↦{fullShare} V' main_arg1) : sProp 𝕄)
      ⊢ iprop((((c : Thread nD τ).loc main_arg1) ↦{(fullShare : PosShare TreeShare).left} V' main_arg1) ∗ (((c : Thread nD τ).loc main_arg1) ↦{(fullShare : PosShare TreeShare).right} V' main_arg1)) :=
    Entails.of_eq Cert.LibShares.pointsTo_halves
  iintro ⟨H0, H1, H2, H3, H4, H5, H6, H7, H8⟩
  ihave Hh := hh $$ H1
  icases Hh with ⟨H1a, H1b⟩
  isplitl [H0]; · iexact H0
  isplitl [H1a]; · iexact H1a
  isplitl [H1b]; · iexact H1b
  isplitl [H2]; · iexact H2
  isplitl [H3]; · iexact H3
  isplitl [H4]; · iexact H4
  isplitl [H5]; · iexact H5
  isplitl [H6]; · iexact H6
  isplitl [H7]; · iexact H7
  iexact H8

/-- Exit: the windows' arrays make the whole buffers again, the two halves rejoined. -/
theorem leave0 (c : Dev nD) (V' : (b : Ref sig .tc) → Buf (Elt F) ((c : Thread nD τ).loc b)) :
    ((dat0 V c).arrays (fun w => V' (Pipeline.arrRef spec0 w)) : sProp 𝕄)
      ⊢ Pipeline.arrBufs (Ix := Unit) (Name := ℕ) (U := UR sig nD τ) (Lvl := ℕ) spec0 c V' := by
  rw [arrBufs0_eq, arrays0_eq]
  have hh : iprop((((c : Thread nD τ).loc main_arg1) ↦{(fullShare : PosShare TreeShare).left} V' main_arg1) ∗ (((c : Thread nD τ).loc main_arg1) ↦{(fullShare : PosShare TreeShare).right} V' main_arg1))
      ⊢ ((((c : Thread nD τ).loc main_arg1) ↦{fullShare} V' main_arg1) : sProp 𝕄) :=
    Entails.of_eq Cert.LibShares.pointsTo_halves.symm
  iintro ⟨G0, G1, G2, G3, G4, G5, G6, G7, G8, G9⟩
  ihave H1 := hh $$ [G1 G2]
  · isplitl [G1]; · iexact G1
    iexact G2
  isplitl [G0]; · iexact G0
  isplitl [H1]; · iexact H1
  isplitl [G3]; · iexact G3
  isplitl [G4]; · iexact G4
  isplitl [G5]; · iexact G5
  isplitl [G6]; · iexact G6
  isplitl [G7]; · iexact G7
  isplitl [G8]; · iexact G8
  iexact G9

/-- The core's unscoped buffers at a valuation are launch 0's arrays and the rest. -/
theorem split0 (c : Dev nD) (W : Valuation τ sig (Elt F)) :
    (StableHlo.held (c : Thread nD τ) (Pipeline.ucRefs τ sig) W : sProp 𝕄)
      ⊢ iprop((dat0 V c).arrays (fun w => W (Pipeline.arrRef spec0 w))
          ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W,
    Pipeline.unscopedBufs_split₀ cfgs 0 winFacts₀0.arr_unscoped c (fun b => W b)]
  exact sep_mono (enter0 V c (fun b => W b)) .rfl

/-- Launch 0's arrays at contents `W'` has them at and the rest at `W` are the core's unscoped buffers at `W'`, when
    `W'` agrees with `W` off the arrays. -/
theorem join0 (c : Dev nD) (W W' : Valuation τ sig (Elt F))
    (hrest : ∀ b : Ref sig .tc, b ∉ Finset.univ.image (Pipeline.arrRef spec0) → W' b = W b) :
    iprop((dat0 V c).arrays (fun w => W' (Pipeline.arrRef spec0 w))
          ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split₀ cfgs 0 winFacts₀0.arr_unscoped c (fun b => W' b)]
  refine sep_mono (leave0 V c (fun b => W' b)) (Entails.of_eq ?_)
  unfold Pipeline.unscopedRest
  exact bigSep_congr fun b hb => by dsimp only; rw [hrest b (Finset.mem_sdiff.mp hb).2]

end Shares0

/-! ## Launch 1: its arrays out of the core's unscoped buffers and back; one array read through two windows -/

section Shares1
variable (V : (c : Dev nD) → (b : Ref sig .tc) → Buf (Elt F) ((c : Thread nD τ).loc b))

/-- The distinct buffers behind launch 1's windows, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg0) ↦{fullShare} V' main_arg0) ∗ (((c : Thread nD τ).loc main_v4_0) ↦{fullShare} V' main_v4_0) ∗ (((c : Thread nD τ).loc main_v4_1) ↦{fullShare} V' main_v4_1) ∗ (((c : Thread nD τ).loc main_arg3) ↦{fullShare} V' main_arg3) ∗ (((c : Thread nD τ).loc main_v5) ↦{fullShare} V' main_v5)) := by
  unfold Pipeline.arrBufs
  exact bigSep_eq_bigSepL_of_eq [main_arg0, main_v4_0, main_v4_1, main_arg3, main_v5] (by decide) (by decide) _

/-- The proof data's arrays, window by window: the array two windows read is held half by each. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_arg0) ↦{fullShare} Fw 0) ∗ (((c : Thread nD τ).loc main_v4_0) ↦{(fullShare : PosShare TreeShare).left} Fw 1) ∗ (((c : Thread nD τ).loc main_v4_0) ↦{(fullShare : PosShare TreeShare).right} Fw 2) ∗ (((c : Thread nD τ).loc main_v4_1) ↦{fullShare} Fw 3) ∗ (((c : Thread nD τ).loc main_arg3) ↦{fullShare} Fw 4) ∗ (((c : Thread nD τ).loc main_v5) ↦{fullShare} Fw 5)) := by
  have e : ∀ w : Fin cfg1.W, ((cfg1.win w).arr.view.loc (c : Thread nD τ) ↦[(cfg1.win w).arr.view.set]{(dat1 V c).share w} Fw w : sProp 𝕄)
      = ((cfg1.win w).arr.view.loc (c : Thread nD τ) ↦{(dat1 V c).share w} Fw w) := fun w => by rw [(arr_whole1 w).set_eq_univ]
  unfold Dat.arrays
  rw [bigSep_congr (fun w _ => e w), bigSep_W1]
  rfl

/-- Entry: the whole buffers make the windows' arrays, the shared array split in halves. -/
theorem enter1 (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      ⊢ (dat1 V c).arrays (fun w => V' (Pipeline.arrRef spec1 w)) := by
  rw [arrBufs1_eq, arrays1_eq]
  have hh : ((((c : Thread nD τ).loc main_v4_0) ↦{fullShare} V' main_v4_0) : sProp 𝕄)
      ⊢ iprop((((c : Thread nD τ).loc main_v4_0) ↦{(fullShare : PosShare TreeShare).left} V' main_v4_0) ∗ (((c : Thread nD τ).loc main_v4_0) ↦{(fullShare : PosShare TreeShare).right} V' main_v4_0)) :=
    Entails.of_eq Cert.LibShares.pointsTo_halves
  iintro ⟨H0, H1, H2, H3, H4⟩
  ihave Hh := hh $$ H1
  icases Hh with ⟨H1a, H1b⟩
  isplitl [H0]; · iexact H0
  isplitl [H1a]; · iexact H1a
  isplitl [H1b]; · iexact H1b
  isplitl [H2]; · iexact H2
  isplitl [H3]; · iexact H3
  iexact H4

/-- Exit: the windows' arrays make the whole buffers again, the two halves rejoined. -/
theorem leave1 (c : Dev nD) (V' : (b : Ref sig .tc) → Buf (Elt F) ((c : Thread nD τ).loc b)) :
    ((dat1 V c).arrays (fun w => V' (Pipeline.arrRef spec1 w)) : sProp 𝕄)
      ⊢ Pipeline.arrBufs (Ix := Unit) (Name := ℕ) (U := UR sig nD τ) (Lvl := ℕ) spec1 c V' := by
  rw [arrBufs1_eq, arrays1_eq]
  have hh : iprop((((c : Thread nD τ).loc main_v4_0) ↦{(fullShare : PosShare TreeShare).left} V' main_v4_0) ∗ (((c : Thread nD τ).loc main_v4_0) ↦{(fullShare : PosShare TreeShare).right} V' main_v4_0))
      ⊢ ((((c : Thread nD τ).loc main_v4_0) ↦{fullShare} V' main_v4_0) : sProp 𝕄) :=
    Entails.of_eq Cert.LibShares.pointsTo_halves.symm
  iintro ⟨G0, G1, G2, G3, G4, G5⟩
  ihave H1 := hh $$ [G1 G2]
  · isplitl [G1]; · iexact G1
    iexact G2
  isplitl [G0]; · iexact G0
  isplitl [H1]; · iexact H1
  isplitl [G3]; · iexact G3
  isplitl [G4]; · iexact G4
  iexact G5

/-- The core's unscoped buffers at a valuation are launch 1's arrays and the rest. -/
theorem split1 (c : Dev nD) (W : Valuation τ sig (Elt F)) :
    (StableHlo.held (c : Thread nD τ) (Pipeline.ucRefs τ sig) W : sProp 𝕄)
      ⊢ iprop((dat1 V c).arrays (fun w => W (Pipeline.arrRef spec1 w))
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W,
    Pipeline.unscopedBufs_split₀ cfgs 1 winFacts₀1.arr_unscoped c (fun b => W b)]
  exact sep_mono (enter1 V c (fun b => W b)) .rfl

/-- Launch 1's arrays at contents `W'` has them at and the rest at `W` are the core's unscoped buffers at `W'`, when
    `W'` agrees with `W` off the arrays. -/
theorem join1 (c : Dev nD) (W W' : Valuation τ sig (Elt F))
    (hrest : ∀ b : Ref sig .tc, b ∉ Finset.univ.image (Pipeline.arrRef spec1) → W' b = W b) :
    iprop((dat1 V c).arrays (fun w => W' (Pipeline.arrRef spec1 w))
          ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split₀ cfgs 1 winFacts₀1.arr_unscoped c (fun b => W' b)]
  refine sep_mono (leave1 V c (fun b => W' b)) (Entails.of_eq ?_)
  unfold Pipeline.unscopedRest
  exact bigSep_congr fun b hb => by dsimp only; rw [hrest b (Finset.mem_sdiff.mp hb).2]

end Shares1

/-! ## What each launch leaves, window by window -/

/-- After the first launch every window's array is the valuation `W2` there: an input array was not written, an output
    array is what the write-backs leave. -/
theorem hF0 (c : Dev nD) (w : Fin cfg0.W) : (dat0 (E1 m) c).arrAt w cfg0.N = W2 m c (Pipeline.arrRef spec0 w) := by
  match w with
  | ⟨0, _⟩ => exact (((dat0 (E1 m) c).arrAt_in 0 rfl _).trans (A_eq0 (E1 m) c 0)).trans (W2_of m c _ (by decide)).symm
  | ⟨1, _⟩ => exact (((dat0 (E1 m) c).arrAt_in 1 rfl _).trans (A_eq0 (E1 m) c 1)).trans (W2_of m c _ (by decide)).symm
  | ⟨2, _⟩ => exact (((dat0 (E1 m) c).arrAt_in 2 rfl _).trans (A_eq0 (E1 m) c 2)).trans (W2_of m c _ (by decide)).symm
  | ⟨3, _⟩ => exact (((dat0 (E1 m) c).arrAt_in 3 rfl _).trans (A_eq0 (E1 m) c 3)).trans (W2_of m c _ (by decide)).symm
  | ⟨4, _⟩ => exact (((dat0 (E1 m) c).arrAt_in 4 rfl _).trans (A_eq0 (E1 m) c 4)).trans (W2_of m c _ (by decide)).symm
  | ⟨5, _⟩ => exact (((dat0 (E1 m) c).arrAt_in 5 rfl _).trans (A_eq0 (E1 m) c 5)).trans (W2_of m c _ (by decide)).symm
  | ⟨6, _⟩ => exact (((dat0 (E1 m) c).arrAt_in 6 rfl _).trans (A_eq0 (E1 m) c 6)).trans (W2_of m c _ (by decide)).symm
  | ⟨7, _⟩ => exact (((dat0 (E1 m) c).arrAt_in 7 rfl _).trans (A_eq0 (E1 m) c 7)).trans (W2_of m c _ (by decide)).symm
  | ⟨8, _⟩ => exact (W2_v4_0 m c).symm
  | ⟨9, _⟩ => exact (W2_v4_1 m c).symm
theorem hrest0 (c : Dev nD) : ∀ b : Ref sig .tc, b ∉ Finset.univ.image (Pipeline.arrRef spec0) → W2 m c b = Gen.V1 m c b := fun b hb =>
  W2_of m c b (fun h => by
    rcases List.mem_cons.mp h with rfl | h
    · exact hb (Finset.mem_image.mpr ⟨8, Finset.mem_univ _, rfl⟩)
    · rcases List.mem_cons.mp h with rfl | h
      · exact hb (Finset.mem_image.mpr ⟨9, Finset.mem_univ _, rfl⟩)
      · exact absurd h List.not_mem_nil)

/-- After the second launch likewise, at `W3`. -/
theorem hF1 (c : Dev nD) (w : Fin cfg1.W) : (dat1 (E2 m) c).arrAt w cfg1.N = W3 m c (Pipeline.arrRef spec1 w) := by
  match w with
  | ⟨0, _⟩ => exact (((dat1 (E2 m) c).arrAt_in 0 rfl _).trans (A_eq1 (E2 m) c 0)).trans (W3_of m c _ (by decide)).symm
  | ⟨1, _⟩ => exact (((dat1 (E2 m) c).arrAt_in 1 rfl _).trans (A_eq1 (E2 m) c 1)).trans (W3_of m c _ (by decide)).symm
  | ⟨2, _⟩ => exact (((dat1 (E2 m) c).arrAt_in 2 rfl _).trans (A_eq1 (E2 m) c 2)).trans (W3_of m c _ (by decide)).symm
  | ⟨3, _⟩ => exact (((dat1 (E2 m) c).arrAt_in 3 rfl _).trans (A_eq1 (E2 m) c 3)).trans (W3_of m c _ (by decide)).symm
  | ⟨4, _⟩ => exact (((dat1 (E2 m) c).arrAt_in 4 rfl _).trans (A_eq1 (E2 m) c 4)).trans (W3_of m c _ (by decide)).symm
  | ⟨5, _⟩ => exact (W3_v5 m c).symm
theorem hrest1 (c : Dev nD) : ∀ b : Ref sig .tc, b ∉ Finset.univ.image (Pipeline.arrRef spec1) → W3 m c b = W2 m c b := fun b hb =>
  W3_of m c b (fun h => by
    rcases List.mem_cons.mp h with rfl | h
    · exact hb (Finset.mem_image.mpr ⟨5, Finset.mem_univ _, rfl⟩)
    · exact absurd h List.not_mem_nil)

/-! ## The proof data family and the thread state -/

/-- Every launch's proof data, each at its launch's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last valuation, the generator register at some state. -/
abbrev Tₙ (c : Dev nD) : sProp 𝕄 := iprop(StableHlo.held (c : Thread nD τ) (Pipeline.ucRefs τ sig) (W3 m c) ∗ ∃ r, prngReg c r)

/-! ## The launches as segments -/

set_option backward.isDefEq.respectTransparency.types false in
/-- Launch 0 over the thread state: entered with every unscoped buffer at the valuation before it, left with them at the
    valuation after it. Its arrays come out of the unscoped buffers at entry (the twice-read array in halves) and go back
    at the exit contents; the generator register passes through the invariant; nothing is owed; the kernel has no
    semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := split0 (E1 m) c (Gen.V1 m c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join0 (E1 m) c (Gen.V1 m c) (W2 m c) (hrest0 m c)
    rw [← show (fun w => (dat0 (E1 m) c).arrAt w cfg0.N) = (fun w => W2 m c (Pipeline.arrRef spec0 w)) from funext (hF0 m c)] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the valuation before it, left with them at the
    valuation after it. Its arrays come out of the unscoped buffers at entry (the twice-read array in halves) and go back
    at the exit contents; the generator register passes through the invariant; nothing is owed; the kernel has no
    semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := split1 (E2 m) c (W2 m c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 (E2 m) c (W2 m c) (W3 m c) (hrest1 m c)
    rw [← show (fun w => (dat1 (E2 m) c).arrAt w cfg1.N) = (fun w => W3 m c (Pipeline.arrRef spec1 w)) from funext (hF1 m c)] at hjoin
    iintro ⟨Ha, HO, HY, Hrest⟩
    imodintro
    isplitl [Ha Hrest HY]
    · isplitl [Ha Hrest]
      · iapply hjoin; isplitl [Ha]
        · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg hostOps0 hostOps0_sub hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final memory holds each unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- Each argument array ends as launched: no host operation writes it and no launch may change it. -/
theorem W3_arg (c : Dev nD) (r : Ref sig .tc) (h3 : r ∉ ([main_v5] : List (Ref sig .tc))) (h2 : r ∉ ([main_v4_0, main_v4_1] : List (Ref sig .tc)))
    (h1 : r ∉ Gen.hostOps0_W) : W3 m c r = m ((c : Thread nD τ).loc r) :=
  (W3_of m c r h3).trans <| (W2_of m c r h2).trans <| (Gen.V1_of m c r h1).trans rfl

/-- The frame: the program runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide)),
     (h c _ (mem_uc main_arg5 (by decide))).trans (W3_arg m c main_arg5 (by decide) (by decide) (by decide)),
     (h c _ (mem_uc main_arg6 (by decide))).trans (W3_arg m c main_arg6 (by decide) (by decide) (by decide)),
     (h c _ (mem_uc main_arg7 (by decide))).trans (W3_arg m c main_arg7 (by decide) (by decide) (by decide))⟩) (run_all m ρ)

/-- The same run with the result named: it ends at what the second launch's write-backs leave. -/
theorem run_value : θ_run defs (onTc (τ := τ) (main (F := F))) ⟨m, fun _ => 0, ρ⟩ (fun r => ∀ c : Dev nD,
      r.2.mem ((c.tc : Thread nD τ).loc main_v5) = (dat1 (E2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5 (by decide))).trans (W3_v5 m c),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide)),
     (h c _ (mem_uc main_arg5 (by decide))).trans (W3_arg m c main_arg5 (by decide) (by decide) (by decide)),
     (h c _ (mem_uc main_arg6 (by decide))).trans (W3_arg m c main_arg6 (by decide) (by decide) (by decide)),
     (h c _ (mem_uc main_arg7 (by decide))).trans (W3_arg m c main_arg7 (by decide) (by decide) (by decide))⟩) (run_all m ρ)

end Cert.KernelIdeal.Hand

end
-- ==== Proof.Spec.lean ====
/-
  The graph-convolution layer as ONE function of its eight argument arrays, element by element, on the extended reals.

  With `A` the [10000,10000] adjacency matrix, `X` the [10000,128] features, `W`, `W'` the two convolution weights and
  `W1, b1, W2, b2` the two linear layers of the self path, the layer's [10000,384] result is three column blocks:
    columns   0..127 : self  = relu(X · W1ᵀ + b1) · W2ᵀ + b2
    columns 128..255 : conv1 = relu((A · X) · W)
    columns 256..383 : conv2 = (A · conv1) · W'
  every product grouped exactly as written (the row of A·X first, then its product with the weight), so that no law
  beyond reading a sum index by index is needed to meet either program.
-/
import Idealize.ShloMosaic.PureOps.Ideal
import Idealize.ShloMosaic.Lib.ValueIdx

noncomputable section

open scoped BigOperators

namespace Cert.Gcn

open Idealize.ShloMosaic Idealize.ShloMosaic.ValueIdx

/-- Arrays of the layer's shapes, as functions of an index into extended reals. -/
abbrev Mat (a b : Nat) : Type := (⟨2, ![a, b]⟩ : Shape).Idx → EReal
abbrev Row (a : Nat) : Type := (⟨1, ![a]⟩ : Shape).Idx → EReal

/-- Entry (r, j) of the product of an [n,10000] matrix with a [10000,128] matrix: the sum over the 10000 inner positions. -/
def aggr {n : Nat} (A : Mat n 10000) (X : Mat 10000 128) (r : Fin n) (j : Fin 128) : EReal :=
  ∑ l : Fin 10000, A (ix2 r l) * X (ix2 l j)

/-- Entry (r, j) of the product of a [n,128] table `Y` (given by its entries) with a [128,128] matrix. -/
def proj {n : Nat} (Y : Fin n → Fin 128 → EReal) (W : Mat 128 128) (r : Fin n) (j : Fin 128) : EReal :=
  ∑ k : Fin 128, Y r k * W (ix2 k j)

/-- First convolution: relu((A · X) · W). -/
def conv1 (A : Mat 10000 10000) (X : Mat 10000 128) (W : Mat 128 128) (r : Fin 10000) (j : Fin 128) : EReal :=
  max (proj (aggr A X) W r j) 0

/-- The first convolution as an array. -/
def conv1Arr (A : Mat 10000 10000) (X : Mat 10000 128) (W : Mat 128 128) : Mat 10000 128 :=
  fun i => conv1 A X W (i 0) (i 1)

/-- Second convolution: (A · conv1) · W'. -/
def conv2 (A : Mat 10000 10000) (X : Mat 10000 128) (W W' : Mat 128 128) (r : Fin 10000) (j : Fin 128) : EReal :=
  proj (aggr A (conv1Arr A X W)) W' r j

/-- Hidden layer of the self path: relu(X · W1ᵀ + b1); entry (r, k) contracts row r of X with ROW k of W1. -/
def hid {n : Nat} (X : Mat n 128) (W1 : Mat 128 128) (b1 : Row 128) (r : Fin n) (k : Fin 128) : EReal :=
  max ((∑ l : Fin 128, X (ix2 r l) * W1 (ix2 k l)) + b1 (ix1 k)) 0

/-- The self path: hid · W2ᵀ + b2; entry (r, j) contracts row r of the hidden layer with ROW j of W2. -/
def selfOut {n : Nat} (X : Mat n 128) (W1 : Mat 128 128) (b1 : Row 128) (W2 : Mat 128 128) (b2 : Row 128) (r : Fin n) (j : Fin 128) : EReal :=
  (∑ k : Fin 128, hid X W1 b1 r k * W2 (ix2 j k)) + b2 (ix1 j)

/-- The self path as an array. -/
def selfArr (X : Mat 10000 128) (W1 : Mat 128 128) (b1 : Row 128) (W2 : Mat 128 128) (b2 : Row 128) : Mat 10000 128 :=
  fun i => selfOut X W1 b1 W2 b2 (i 0) (i 1)

/-- The second convolution as an array. -/
def conv2Arr (A : Mat 10000 10000) (X : Mat 10000 128) (W W' : Mat 128 128) : Mat 10000 128 :=
  fun i => conv2 A X W W' (i 0) (i 1)

/-- Three [n,128] arrays side by side as one [n,384] array: column c comes from the first for c < 128, from the second
    for 128 ≤ c < 256, from the third otherwise. -/
def beside {n : Nat} (P Q R : Mat n 128) : Mat n 384 := fun i =>
  if h : (i 1).val < 128 then P (ix2 (i 0) ⟨(i 1).val, h⟩)
  else if h2 : (i 1).val < 256 then Q (ix2 (i 0) ⟨(i 1).val - 128, by omega⟩)
  else R (ix2 (i 0) ⟨(i 1).val - 256, by have := (i 1).isLt; simp at this; omega⟩)

/-- The layer: self, conv1, conv2 side by side. -/
def layer (A : Mat 10000 10000) (X : Mat 10000 128) (W W' W1 : Mat 128 128) (b1 : Row 128) (W2 : Mat 128 128) (b2 : Row 128) : Mat 10000 384 :=
  beside (selfArr X W1 b1 W2 b2) (conv1Arr A X W) (conv2Arr A X W W')

end Cert.Gcn

end
-- ==== Proof.Payloads.lean ====
/-
  The kernel's stored values read entry by entry, on the extended reals.

  Each value a kernel function stores is a composition of matrix products into a zero accumulator, a row added to
  every row, and a maximum with zero; the narrowing of an operand before a product is the identity on the extended
  reals, and a cast to the same shape is the identity. Read at the entry (p, j), each product is the sum over its
  inner position, so each stored value is the specification's expression at (p, j).
-/
import proofs.«145658_g5471788335182_cont_9to1c4b_211_5_alg».proof.Proof.Spec
import proofs.«145658_g5471788335182_cont_9to1c4b_211_5_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.Gcn.Pay

open Cert.KernelIdeal Cert.KernelIdeal.Gen Cert.Gcn Idealize.ShloMosaic Idealize.ShloMosaic.ValueIdx

/-! ## The two products at an entry -/

/-- In the [400,10000] × [10000,128] product the left operand's row coordinate is the output's. -/
theorem lhsBig_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- Its column coordinate is the inner position. -/
theorem lhsBig_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row coordinate is the inner position. -/
theorem rhsBig_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- Its column coordinate is the output's. -/
theorem rhsBig_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The [400,10000] × [10000,128] product into the zero accumulator, at (p, j): the sum over the 10000 inner positions. -/
theorem mmBig_apply (l : FVec Ideal S400x10000 .bf16) (r : FVec Ideal S10000x128 .bf16) (p : Fin 400) (j : Fin 128) :
    matmul (F := Ideal) dot_S400x10000_S10000x128_S400x128_1_0_0_1_n_n none l r (constant (F := Ideal) S400x128 .f32 0x00000000#32) (ix2 p j)
      = ∑ k : Fin 10000, l (ix2 p k) * r (ix2 k j) := by
  refine (Ideal.matmul_constant_zero_apply dot_S400x10000_S10000x128_S400x128_1_0_0_1_n_n none l r (ix2 p j)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p j) ((contrEquiv1 dot_S400x10000_S10000x128_S400x128_1_0_0_1_n_n 10000 rfl rfl).symm k) = ix2 p k := funext fun a => Fin.ext (by
    match a with
    | ⟨0, _⟩ => exact lhsBig_0 _ _
    | ⟨1, _⟩ => exact (lhsBig_1 _ _).trans hk)
  have er : dot_S400x10000_S10000x128_S400x128_1_0_0_1_n_n.rhsIdx (ix2 p j) ((contrEquiv1 dot_S400x10000_S10000x128_S400x128_1_0_0_1_n_n 10000 rfl rfl).symm k) = ix2 k j := funext fun a => Fin.ext (by
    match a with
    | ⟨0, _⟩ => exact (rhsBig_0 _ _).trans hk
    | ⟨1, _⟩ => exact rhsBig_1 _ _)
  rw [el, er]

/-- In the [400,128] × [128,128] product the left operand's row coordinate is the output's. -/
theorem lhsSmall_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- Its column coordinate is the inner position. -/
theorem lhsSmall_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's row coordinate is the inner position. -/
theorem rhsSmall_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- Its column coordinate is the output's. -/
theorem rhsSmall_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The [400,128] × [128,128] product into the zero accumulator, at (p, j): the sum over the 128 inner positions. -/
theorem mmSmall_apply (l : FVec Ideal S400x128 .f32) (r : FVec Ideal S128x128 .f32) (p : Fin 400) (j : Fin 128) :
    matmul (F := Ideal) dot_S400x128_S128x128_S400x128_1_0_0_1_n_n none l r (constant (F := Ideal) S400x128 .f32 0x00000000#32) (ix2 p j)
      = ∑ k : Fin 128, l (ix2 p k) * r (ix2 k j) := by
  refine (Ideal.matmul_constant_zero_apply dot_S400x128_S128x128_S400x128_1_0_0_1_n_n none l r (ix2 p j)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p j) ((contrEquiv1 dot_S400x128_S128x128_S400x128_1_0_0_1_n_n 128 rfl rfl).symm k) = ix2 p k := funext fun a => Fin.ext (by
    match a with
    | ⟨0, _⟩ => exact lhsSmall_0 _ _
    | ⟨1, _⟩ => exact (lhsSmall_1 _ _).trans hk)
  have er : dot_S400x128_S128x128_S400x128_1_0_0_1_n_n.rhsIdx (ix2 p j) ((contrEquiv1 dot_S400x128_S128x128_S400x128_1_0_0_1_n_n 128 rfl rfl).symm k) = ix2 k j := funext fun a => Fin.ext (by
    match a with
    | ⟨0, _⟩ => exact (rhsSmall_0 _ _).trans hk
    | ⟨1, _⟩ => exact rhsSmall_1 _ _)
  rw [el, er]

/-- The zero the kernel takes its maximum with. -/
theorem zero_apply (i : S400x128.Idx) :
    broadcast S400x128 (Scalar.ofBits (F := Ideal) .f32 0x00000000#32) i = (0 : EReal) :=
  Ideal.ofBits_zero_f32

/-! ## The first kernel's two stored values -/

/-- The first kernel's first stored value at (p, j): relu of the row of (a · fk) times w. -/
theorem pay1_apply (a : Vec Ideal S400x10000 .f32) (fk : Vec Ideal S10000x128 .f32) (w : Vec Ideal S128x128 .f32) (p : Fin 400) (j : Fin 128) :
    k0_pay1 (F := Ideal) a fk w (ix2 p j) = max (proj (aggr a fk) w p j) 0 := by
  unfold k0_pay1
  refine (maximumf_apply _ _ _).trans ?_
  refine congrArg₂ max ?_ (zero_apply _)
  refine (mmSmall_apply _ _ p j).trans ?_
  unfold proj
  refine Finset.sum_congr rfl fun k _ => congrArg (· * w (ix2 k j)) ?_
  refine (mmBig_apply _ _ p k).trans ?_
  unfold aggr
  exact Finset.sum_congr rfl fun l _ => congrArg₂ (· * ·) (truncf_apply _ _ _) (truncf_apply _ _ _)

/-- The first kernel's second stored value at (p, j): the two-layer self path with the weights as stored
    (already transposed) and the biases as one-row arrays. -/
theorem pay2_apply (xm : Vec Ideal S400x128 .f32) (w1t : Vec Ideal S128x128 .f32) (b1r : Vec Ideal S1x128 .f32) (w2t : Vec Ideal S128x128 .f32) (b2r : Vec Ideal S1x128 .f32) (p : Fin 400) (j : Fin 128) :
    k0_pay2 (F := Ideal) xm w1t b1r w2t b2r (ix2 p j)
      = (∑ k : Fin 128, max ((∑ l : Fin 128, xm (ix2 p l) * w1t (ix2 l k)) + b1r (ix2 (0 : Fin 1) k)) 0 * w2t (ix2 k j)) + b2r (ix2 (0 : Fin 1) j) := by
  unfold k0_pay2
  refine (addf_apply _ _ _).trans ?_
  refine congrArg₂ (· + ·) ?_ ((broadcastTo_1b_ab_apply _ _ p j).trans (congrFun (shapeCast_self b2r _) _))
  refine (mmSmall_apply _ _ p j).trans ?_
  refine Finset.sum_congr rfl fun k _ => congrArg₂ (· * ·) ?_ (congrFun (shapeCast_self w2t _) _)
  refine (maximumf_apply _ _ _).trans ?_
  refine congrArg₂ max ?_ (zero_apply _)
  refine (addf_apply _ _ _).trans ?_
  refine congrArg₂ (· + ·) ?_ ((broadcastTo_1b_ab_apply _ _ p k).trans (congrFun (shapeCast_self b1r _) _))
  refine (mmSmall_apply _ _ p k).trans ?_
  exact Finset.sum_congr rfl fun l _ => congrArg (xm (ix2 p l) * ·) (congrFun (shapeCast_self w1t _) _)

/-! ## The second kernel's three stored values -/

/-- The second kernel's computed value at (p, j): the row of (a · ck) times w, with no maximum. -/
theorem pay1'_apply (a : Vec Ideal S400x10000 .f32) (ck : Vec Ideal S10000x128 .f32) (w : Vec Ideal S128x128 .f32) (p : Fin 400) (j : Fin 128) :
    k1_pay1 (F := Ideal) a ck w (ix2 p j) = proj (aggr a ck) w p j := by
  unfold k1_pay1
  refine (mmSmall_apply _ _ p j).trans ?_
  unfold proj
  refine Finset.sum_congr rfl fun k _ => congrArg (· * w (ix2 k j)) ?_
  refine (mmBig_apply _ _ p k).trans ?_
  unfold aggr
  refine Finset.sum_congr rfl fun l _ => congrArg₂ (· * ·) (truncf_apply _ _ _) ?_
  refine (truncf_apply (φ := .f32) (ψ := .bf16) _ _ _).trans ?_
  exact congrFun (shapeCast_self ck _) _

/-- The second kernel's first copied value is the block it read. -/
theorem pay2'_eq (v : Vec Ideal S400x128 .f32) : k1_pay2 (F := Ideal) v = v := by
  unfold k1_pay2
  exact shapeCast_self v _

/-- The second kernel's second copied value is the block it read. -/
theorem pay3'_eq (v : Vec Ideal S400x128 .f32) : k1_pay3 (F := Ideal) v = v := by
  unfold k1_pay3
  exact shapeCast_self v _

end Cert.Gcn.Pay

end
-- ==== Proof.IdealArr0.lean ====
/-
  First launch, from blocks to arrays. Each of the 25 grid points writes back rows 400 t … 400 t + 399 of the two output
  arrays; what it writes is those rows of ONE function of the arrays the launch finds, so after the launch each output
  array is that function: the first convolution, and the self path with the weights as stored (already transposed) and
  the biases as one-row arrays.
-/
import proofs.«145658_g5471788335182_cont_9to1c4b_211_5_alg».proof.Proof.IdealBody0
import proofs.«145658_g5471788335182_cont_9to1c4b_211_5_alg».proof.Proof.Payloads
import proofs.«145658_g5471788335182_cont_9to1c4b_211_5_alg».proof.Proof.Spec
import Idealize.ShloMosaic.Lib.Pipeline.Value
import Idealize.ShloMosaic.Lib.ValueIdx

set_option maxRecDepth 16384

noncomputable section

open scoped BigOperators

namespace Cert.KernelIdeal.HandV

open Cert.KernelIdeal Cert.KernelIdeal.Gen Cert.KernelIdeal.Hand Cert.Gcn Cert.Gcn.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem zero_off : (![0, 0] : Fin 2 → Nat) = fun _ => 0 := funext fun a => by fin_cases a <;> rfl

/-- The block indices at grid point t: the row-blocked windows are at block (t, 0), the others at block (0, 0). -/
theorem block_index : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- A grid point is below 25. -/
theorem point_lt (t : Fin cfg0.N) : t.val < 25 := by
  have h : cfg0.N = 25 := N_0
  have := t.isLt
  omega

/-! ## The input blocks, read off the arrays -/

/-- The adjacency stripe at point t is rows 400 t … of the adjacency matrix. -/
theorem blk_adj (c : Dev nD) (t : Fin cfg0.N) (p : Fin 400) (l : Fin 10000) (r : Fin 10000) (hr : r.val = 400 * t.val + p.val) :
    (iblk0 V c 0 t : S400x10000.Idx → EReal) (ix2 p l) = (V c main_arg0 : S10000x10000.Idx → EReal) (ix2 r l) := by
  obtain ⟨⟨e0, e1⟩, -⟩ := block_index t
  unfold iblk0
  rw [View.read_apply]
  show V c main_arg0 _ = V c main_arg0 _
  congr 1
  funext a
  apply Fin.ext
  match a with
  | ⟨0, _⟩ => show win0_0.index t (0 : Fin 2) * 400 + 1 * p.val = r.val; rw [e0, hr]; omega
  | ⟨1, _⟩ => show win0_0.index t (1 : Fin 2) * 10000 + 1 * l.val = l.val; rw [e1]; omega

/-! ## The self path as the launch computes it -/

/-- The self path with the two linear weights as stored (already transposed) and the biases as one-row arrays:
    relu(X · W1t + B1) · W2t + B2. -/
def selfStored (X : Mat 10000 128) (W1t : Mat 128 128) (B1 : Mat 1 128) (W2t : Mat 128 128) (B2 : Mat 1 128) : Mat 10000 128 :=
  fun i => (∑ k : Fin 128, max ((∑ l : Fin 128, X (ix2 (i 0) l) * W1t (ix2 l k)) + B1 (ix2 (0 : Fin 1) k)) 0 * W2t (ix2 k (i 1)))
    + B2 (ix2 (0 : Fin 1) (i 1))

/-- Its entry (r, q). -/
theorem selfStored_apply (X : Mat 10000 128) (W1t : Mat 128 128) (B1 : Mat 1 128) (W2t : Mat 128 128) (B2 : Mat 1 128)
    (r : Fin 10000) (q : Fin 128) :
    selfStored X W1t B1 W2t B2 (ix2 r q)
      = (∑ k : Fin 128, max ((∑ l : Fin 128, X (ix2 r l) * W1t (ix2 l k)) + B1 (ix2 (0 : Fin 1) k)) 0 * W2t (ix2 k q))
        + B2 (ix2 (0 : Fin 1) q) := rfl

/-- The feature rows at point t are rows 400 t … of the feature matrix. -/
theorem blk_rows (c : Dev nD) (t : Fin cfg0.N) (p : Fin 400) (l : Fin 128) (r : Fin 10000) (hr : r.val = 400 * t.val + p.val) :
    (iblk0 V c 2 t : S400x128.Idx → EReal) (ix2 p l) = (V c main_arg1 : S10000x128.Idx → EReal) (ix2 r l) := by
  obtain ⟨e0, e1⟩ := (block_index t).2.2.1
  unfold iblk0
  rw [View.read_apply]
  show V c main_arg1 _ = V c main_arg1 _
  congr 1
  funext a
  apply Fin.ext
  match a with
  | ⟨0, _⟩ => show win0_2.index t (0 : Fin 2) * 400 + 1 * p.val = r.val; rw [e0, hr]; omega
  | ⟨1, _⟩ => show win0_2.index t (1 : Fin 2) * 128 + 1 * l.val = l.val; rw [e1]; omega

/-- The whole feature matrix, at every point. -/
theorem blk_feat (c : Dev nD) (t : Fin cfg0.N) :
    (iblk0 V c 1 t : S10000x128.Idx → EReal) = (V c main_arg1 : S10000x128.Idx → EReal) := by
  obtain ⟨e0, e1⟩ := (block_index t).2.1
  funext y
  unfold iblk0
  rw [View.read_apply]
  show V c main_arg1 _ = V c main_arg1 _
  congr 1
  funext a
  apply Fin.ext
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The convolution weight, at every point. -/
theorem blk_weight (c : Dev nD) (t : Fin cfg0.N) :
    (iblk0 V c 3 t : S128x128.Idx → EReal) = (V c main_arg2 : S128x128.Idx → EReal) := by
  obtain ⟨e0, e1⟩ := (block_index t).2.2.2.1
  funext y
  unfold iblk0
  rw [View.read_apply]
  show V c main_arg2 _ = V c main_arg2 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The first linear weight as stored, at every point. -/
theorem blk_w1t (c : Dev nD) (t : Fin cfg0.N) :
    (iblk0 V c 4 t : S128x128.Idx → EReal) = (V c main_v2 : S128x128.Idx → EReal) := by
  obtain ⟨e0, e1⟩ := (block_index t).2.2.2.2.1
  funext y
  unfold iblk0
  rw [View.read_apply]
  show V c main_v2 _ = V c main_v2 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The first bias row, at every point. -/
theorem blk_b1 (c : Dev nD) (t : Fin cfg0.N) :
    (iblk0 V c 5 t : S1x128.Idx → EReal) = (V c main_v0 : S1x128.Idx → EReal) := by
  obtain ⟨e0, e1⟩ := (block_index t).2.2.2.2.2.1
  funext y
  unfold iblk0
  rw [View.read_apply]
  show V c main_v0 _ = V c main_v0 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The second linear weight as stored, at every point. -/
theorem blk_w2t (c : Dev nD) (t : Fin cfg0.N) :
    (iblk0 V c 6 t : S128x128.Idx → EReal) = (V c main_v3 : S128x128.Idx → EReal) := by
  obtain ⟨e0, e1⟩ := (block_index t).2.2.2.2.2.2.1
  funext y
  unfold iblk0
  rw [View.read_apply]
  show V c main_v3 _ = V c main_v3 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- The second bias row, at every point. -/
theorem blk_b2 (c : Dev nD) (t : Fin cfg0.N) :
    (iblk0 V c 7 t : S1x128.Idx → EReal) = (V c main_v1 : S1x128.Idx → EReal) := by
  obtain ⟨e0, e1⟩ := (block_index t).2.2.2.2.2.2.2.1
  funext y
  unfold iblk0
  rw [View.read_apply]
  show V c main_v1 _ = V c main_v1 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## Where an output block sits in its array -/

/-- Element (p, q) of the first output's block at point t is element (400 t + p, q) of its array. -/
theorem emb_out8 (t : Fin cfg0.N) (p : Fin 400) (q : Fin 128) (r : Fin 10000) (hr : r.val = 400 * t.val + p.val) :
    ((cfg0.win 8).blk t).view.emb (ix2 p q) = (ix2 r q : S10000x128.Idx) := by
  obtain ⟨e0, e1⟩ := (block_index t).2.2.2.2.2.2.2.2.1
  funext a
  apply Fin.ext
  match a with
  | ⟨0, _⟩ => show win0_8.index t (0 : Fin 2) * 400 + 1 * p.val = r.val; rw [e0, hr]; omega
  | ⟨1, _⟩ => show win0_8.index t (1 : Fin 2) * 128 + 1 * q.val = q.val; rw [e1]; omega

/-- Element (p, q) of the second output's block at point t is element (400 t + p, q) of its array. -/
theorem emb_out9 (t : Fin cfg0.N) (p : Fin 400) (q : Fin 128) (r : Fin 10000) (hr : r.val = 400 * t.val + p.val) :
    ((cfg0.win 9).blk t).view.emb (ix2 p q) = (ix2 r q : S10000x128.Idx) := by
  obtain ⟨e0, e1⟩ := (block_index t).2.2.2.2.2.2.2.2.2
  funext a
  apply Fin.ext
  match a with
  | ⟨0, _⟩ => show win0_9.index t (0 : Fin 2) * 400 + 1 * p.val = r.val; rw [e0, hr]; omega
  | ⟨1, _⟩ => show win0_9.index t (1 : Fin 2) * 128 + 1 * q.val = q.val; rw [e1]; omega

/-! ## What a point writes back -/

/-- Point t writes back block t of the first convolution of the arrays the launch finds. -/
theorem flushed8_eq (c : Dev nD) (t : Fin cfg0.N) :
    (dat0 (F := Ideal) V c).flushed 8 t
      = ((cfg0.win 8).blk t).view.read (Elt Ideal) (conv1Arr (V c main_arg0) (V c main_arg1) (V c main_arg2)) := by
  show (cfg0.win 8).cut (grid0.coords t) ((dat0 V c).after 8 t) = _
  rw [after0_8]
  unfold out0_8
  rw [View.canon_unit_zero zero_off]
  simp only [View.ld_unit_zero (S := S400x10000) zero_off, View.ld_unit_zero (S := S10000x128) zero_off,
    View.ld_unit_zero (S := S128x128) zero_off]
  funext j
  obtain ⟨p, q, rfl⟩ : ∃ (p : Fin 400) (q : Fin 128), j = ix2 p q := ⟨j 0, j 1, eq_ix2 j⟩
  have hr : 400 * t.val + p.val < 10000 := by have := point_lt t; have := p.isLt; omega
  show k0_pay1 (F := Ideal) (iblk0 V c 0 t) (iblk0 V c 1 t) (iblk0 V c 3 t) (ix2 p q)
    = conv1Arr (V c main_arg0) (V c main_arg1) (V c main_arg2) (((cfg0.win 8).blk t).view.emb (ix2 p q))
  rw [emb_out8 t p q ⟨400 * t.val + p.val, hr⟩ rfl]
  refine (pay1_apply _ _ _ p q).trans ?_
  show max _ 0 = max (proj (aggr (V c main_arg0) (V c main_arg1)) (V c main_arg2) ⟨400 * t.val + p.val, hr⟩ q) 0
  refine congrArg (fun x => max x (0 : EReal)) ?_
  unfold proj
  refine Finset.sum_congr rfl fun k _ => ?_
  refine congrArg₂ (· * ·) ?_ (congrFun (blk_weight V c t) (ix2 k q))
  unfold aggr
  refine Finset.sum_congr rfl fun l _ => ?_
  exact congrArg₂ (· * ·) (blk_adj V c t p l ⟨400 * t.val + p.val, hr⟩ rfl) (congrFun (blk_feat V c t) (ix2 l k))

/-- Point t writes back block t of the self path of the arrays the launch finds. -/
theorem flushed9_eq (c : Dev nD) (t : Fin cfg0.N) :
    (dat0 (F := Ideal) V c).flushed 9 t
      = ((cfg0.win 9).blk t).view.read (Elt Ideal)
          (selfStored (V c main_arg1) (V c main_v2) (V c main_v0) (V c main_v3) (V c main_v1)) := by
  show (cfg0.win 9).cut (grid0.coords t) ((dat0 V c).after 9 t) = _
  rw [after0_9]
  unfold out0_9
  rw [View.canon_unit_zero zero_off]
  simp only [View.ld_unit_zero (S := S400x128) zero_off, View.ld_unit_zero (S := S128x128) zero_off,
    View.ld_unit_zero (S := S1x128) zero_off]
  funext j
  obtain ⟨p, q, rfl⟩ : ∃ (p : Fin 400) (q : Fin 128), j = ix2 p q := ⟨j 0, j 1, eq_ix2 j⟩
  have hr : 400 * t.val + p.val < 10000 := by have := point_lt t; have := p.isLt; omega
  show k0_pay2 (F := Ideal) (iblk0 V c 2 t) (iblk0 V c 4 t) (iblk0 V c 5 t) (iblk0 V c 6 t) (iblk0 V c 7 t) (ix2 p q)
    = selfStored (V c main_arg1) (V c main_v2) (V c main_v0) (V c main_v3) (V c main_v1) (((cfg0.win 9).blk t).view.emb (ix2 p q))
  rw [emb_out9 t p q ⟨400 * t.val + p.val, hr⟩ rfl]
  refine (pay2_apply _ _ _ _ _ p q).trans ?_
  refine Eq.trans ?_ (selfStored_apply _ _ _ _ _ ⟨400 * t.val + p.val, hr⟩ q).symm
  refine congrArg₂ (· + ·) ?_ (congrFun (blk_b2 V c t) (ix2 (0 : Fin 1) q))
  refine Finset.sum_congr rfl fun k _ => ?_
  refine congrArg₂ (· * ·) ?_ (congrFun (blk_w2t V c t) (ix2 k q))
  refine congrArg (fun x => max x (0 : EReal)) ?_
  refine congrArg₂ (· + ·) ?_ (congrFun (blk_b1 V c t) (ix2 (0 : Fin 1) k))
  refine Finset.sum_congr rfl fun l _ => ?_
  exact congrArg₂ (· * ·) (blk_rows V c t p l ⟨400 * t.val + p.val, hr⟩ rfl) (congrFun (blk_w1t V c t) (ix2 l k))

/-! ## The blocks cover the arrays -/

/-- An index of the first output array is in point t's block iff its row is among the block's 400 rows. -/
theorem mem_blk8 (t : Fin cfg0.N) (i : S10000x128.Idx) :
    i ∈ ((cfg0.win 8).blk t).view.set ↔ ∀ a : Fin 2, win0_8.index t a * S400x128.size a ≤ (i a).val ∧ (i a).val < win0_8.index t a * S400x128.size a + S400x128.size a := by
  show i ∈ ((View.whole main_v4_0).slice (win0_8.rect t)).set ↔ _
  rw [View.set_slice_whole, Rect.mem_set_unit]
  exact Iff.rfl

/-- The same for the second output array. -/
theorem mem_blk9 (t : Fin cfg0.N) (i : S10000x128.Idx) :
    i ∈ ((cfg0.win 9).blk t).view.set ↔ ∀ a : Fin 2, win0_9.index t a * S400x128.size a ≤ (i a).val ∧ (i a).val < win0_9.index t a * S400x128.size a + S400x128.size a := by
  show i ∈ ((View.whole main_v4_1).slice (win0_9.rect t)).set ↔ _
  rw [View.set_slice_whole, Rect.mem_set_unit]
  exact Iff.rfl

/-- Row r of the first output array is in the block of point r / 400. -/
theorem cover8 (i : S10000x128.Idx) : ∃ t : Fin cfg0.N, (cfg0.win 8).flush t = true ∧ i ∈ ((cfg0.win 8).blk t).view.set := by
  have hN : cfg0.N = 25 := N_0
  have hi0 : (i 0).val < 10000 := (i 0).isLt
  have hi1 : (i 1).val < 128 := (i 1).isLt
  let t : Fin cfg0.N := ⟨(i 0).val / 400, by rw [hN]; omega⟩
  obtain ⟨e0, e1⟩ := (block_index t).2.2.2.2.2.2.2.2.1
  have ht : t.val = (i 0).val / 400 := rfl
  refine ⟨t, flush0_8 t, ?_⟩
  rw [mem_blk8]
  intro a
  match a with
  | ⟨0, _⟩ => show win0_8.index t (0 : Fin 2) * 400 ≤ (i 0).val ∧ (i 0).val < win0_8.index t (0 : Fin 2) * 400 + 400; rw [e0, ht]; omega
  | ⟨1, _⟩ => show win0_8.index t (1 : Fin 2) * 128 ≤ (i 1).val ∧ (i 1).val < win0_8.index t (1 : Fin 2) * 128 + 128; rw [e1]; omega

/-- Row r of the second output array is in the block of point r / 400. -/
theorem cover9 (i : S10000x128.Idx) : ∃ t : Fin cfg0.N, (cfg0.win 9).flush t = true ∧ i ∈ ((cfg0.win 9).blk t).view.set := by
  have hN : cfg0.N = 25 := N_0
  have hi0 : (i 0).val < 10000 := (i 0).isLt
  have hi1 : (i 1).val < 128 := (i 1).isLt
  let t : Fin cfg0.N := ⟨(i 0).val / 400, by rw [hN]; omega⟩
  obtain ⟨e0, e1⟩ := (block_index t).2.2.2.2.2.2.2.2.2
  have ht : t.val = (i 0).val / 400 := rfl
  refine ⟨t, flush0_9 t, ?_⟩
  rw [mem_blk9]
  intro a
  match a with
  | ⟨0, _⟩ => show win0_9.index t (0 : Fin 2) * 400 ≤ (i 0).val ∧ (i 0).val < win0_9.index t (0 : Fin 2) * 400 + 400; rw [e0, ht]; omega
  | ⟨1, _⟩ => show win0_9.index t (1 : Fin 2) * 128 ≤ (i 1).val ∧ (i 1).val < win0_9.index t (1 : Fin 2) * 128 + 128; rw [e1]; omega

/-! ## The two output arrays after the launch -/

/-- The first output array ends holding the first convolution. -/
theorem arr8 (c : Dev nD) :
    (dat0 (F := Ideal) V c).arrAt 8 cfg0.N = Cert.Gcn.conv1Arr (V c main_arg0) (V c main_arg1) (V c main_arg2) :=
  (dat0 (F := Ideal) V c).arrAt_eq_of_cover 8 _ (fun t _ => flushed8_eq V c t) cover8

/-- The second output array ends holding the self path, with the weights as stored and the biases as one-row arrays. -/
theorem arr9 (c : Dev nD) :
    (dat0 (F := Ideal) V c).arrAt 9 cfg0.N
      = selfStored (V c main_arg1) (V c main_v2) (V c main_v0) (V c main_v3) (V c main_v1) :=
  (dat0 (F := Ideal) V c).arrAt_eq_of_cover 9 _ (fun t _ => flushed9_eq V c t) cover9

end Cert.KernelIdeal.HandV

end
-- ==== Proof.IdealArr1.lean ====
/-
  Second launch, from blocks to the array. At every grid point the body leaves in its output buffer the self-path rows,
  the first convolution's rows and the second convolution of the adjacency stripe with the whole first convolution, side
  by side; each input block is the matching rows (or the whole) of its array, the output block at point t is rows
  400 t … 400 t + 399 of the output array, and the 25 blocks cover it. So the output array ends holding the three
  [10000,128] arrays side by side, as one function of the arrays the launch finds.
-/
import proofs.«145658_g5471788335182_cont_9to1c4b_211_5_alg».proof.Proof.IdealBody1
import proofs.«145658_g5471788335182_cont_9to1c4b_211_5_alg».proof.Proof.Payloads
import proofs.«145658_g5471788335182_cont_9to1c4b_211_5_alg».proof.Proof.Spec
import Idealize.ShloMosaic.Lib.Pipeline.Value
import Idealize.ShloMosaic.Lib.ValueIdx

noncomputable section

namespace Cert.KernelIdeal.HandV

open Cert.KernelIdeal Cert.KernelIdeal.Gen Cert.KernelIdeal.Hand Cert.Gcn
open Idealize.ShloMosaic Idealize.ShloMosaic.ValueIdx Idealize.ShloMosaic.TcCoe Idealize.SL.Sem
open Idealize.ShloMosaic.Pipeline (Dat)

/-! ## Three arrays side by side, read in each column range -/

/-- In the first 128 columns the joined array is the first. -/
theorem beside_left {n : Nat} (P Q R : Mat n 128) (r : Fin n) (q : Fin 384) (j : Fin 128) (h : q.val = j.val) :
    beside P Q R (ix2 r q) = P (ix2 r j) := by
  have hj := j.isLt
  show (if h' : q.val < 128 then P (ix2 r ⟨q.val, h'⟩) else _) = _
  rw [dif_pos (by omega)]
  exact congrArg (fun z => P (ix2 r z)) (Fin.ext h)

/-- In the next 128 columns it is the second. -/
theorem beside_mid {n : Nat} (P Q R : Mat n 128) (r : Fin n) (q : Fin 384) (j : Fin 128) (h : q.val = 128 + j.val) :
    beside P Q R (ix2 r q) = Q (ix2 r j) := by
  have hj := j.isLt
  show (if h' : q.val < 128 then _ else if h2 : q.val < 256 then Q (ix2 r ⟨q.val - 128, _⟩) else _) = _
  rw [dif_neg (by omega), dif_pos (by omega)]
  exact congrArg (fun z => Q (ix2 r z)) (Fin.ext (by show q.val - 128 = j.val; omega))

/-- In the last 128 columns it is the third. -/
theorem beside_right {n : Nat} (P Q R : Mat n 128) (r : Fin n) (q : Fin 384) (j : Fin 128) (h : q.val = 256 + j.val) :
    beside P Q R (ix2 r q) = R (ix2 r j) := by
  have hj := j.isLt
  show (if h' : q.val < 128 then _ else if h2 : q.val < 256 then _ else R (ix2 r ⟨q.val - 256, _⟩)) = _
  rw [dif_neg (by omega), dif_neg (by omega)]
  exact congrArg (fun z => R (ix2 r z)) (Fin.ext (by show q.val - 256 = j.val; omega))

/-! ## What the body leaves in its output buffer -/

theorem zeros2 : (![0, 0] : Fin 2 → Nat) = fun _ => 0 := funext fun a => by fin_cases a <;> rfl

/-- Where the three stores' rectangles put a block entry: the same row, the column shifted by 0, 128, 256. -/
theorem emb_rL (p : Fin 400) (j : Fin 128) : rL.emb (ix2 p j) = ix2 p (⟨j.val, by omega⟩ : Fin 384) := by
  funext a; apply Fin.ext
  match a with
  | ⟨0, _⟩ => show 0 + 1 * p.val = p.val; omega
  | ⟨1, _⟩ => show 0 + 1 * j.val = j.val; omega
theorem emb_rM (p : Fin 400) (j : Fin 128) : rM.emb (ix2 p j) = ix2 p (⟨128 + j.val, by omega⟩ : Fin 384) := by
  funext a; apply Fin.ext
  match a with
  | ⟨0, _⟩ => show 0 + 1 * p.val = p.val; omega
  | ⟨1, _⟩ => show 128 + 1 * j.val = 128 + j.val; omega
theorem emb_rR (p : Fin 400) (j : Fin 128) : rR.emb (ix2 p j) = ix2 p (⟨256 + j.val, by omega⟩ : Fin 384) := by
  funext a; apply Fin.ext
  match a with
  | ⟨0, _⟩ => show 0 + 1 * p.val = p.val; omega
  | ⟨1, _⟩ => show 256 + 1 * j.val = 256 + j.val; omega

/-- The body's output block: the self-path rows, the first convolution's rows, and the second convolution of the
    adjacency stripe with the whole first convolution, side by side. -/
theorem out1_5_eq (x0 : Vec Ideal S400x10000 .f32) (x1 : Vec Ideal S10000x128 .f32) (x2 x3 : Vec Ideal S400x128 .f32) (x4 : Vec Ideal S128x128 .f32) :
    out1_5 (F := Ideal) x0 x1 x2 x3 x4 = beside x3 x2 (fun i => proj (aggr x0 x1) x4 (i 0) (i 1)) := by
  unfold out1_5
  simp only [View.ld_unit_zero (S := S400x10000) zeros2, View.ld_unit_zero (S := S10000x128) zeros2,
    View.ld_unit_zero (S := S400x128) zeros2, View.ld_unit_zero (S := S128x128) zeros2]
  rw [Cert.Gcn.Pay.pay2'_eq, Cert.Gcn.Pay.pay3'_eq]
  funext y
  refine View.canon_apply_of_pieces (Val := Elt Ideal) (S := S400x384) (e := .f32) (beside x3 x2 (fun i => proj (aggr x0 x1) x4 (i 0) (i 1))) _ ?_ y (cover1_5 _ _ _ y)
  intro pc hpc x
  simp only [List.mem_cons, List.mem_singleton, List.not_mem_nil, or_false] at hpc
  rcases hpc with rfl | rfl | rfl
  · obtain ⟨p, j, rfl⟩ : ∃ (p : Fin 400) (j : Fin 128), x = ix2 p j := ⟨x 0, x 1, eq_ix2 (n0 := 400) (n1 := 128) x⟩
    show k1_pay1 (F := Ideal) x0 x1 x4 (ix2 p j) = _
    rw [show ((⟨rR, k1_pay1 (F := Ideal) x0 x1 x4⟩ : View.Piece (Elt Ideal) S400x384 .f32).1.emb (ix2 p j)) = rR.emb (ix2 p j) from rfl,
      emb_rR, beside_right _ _ _ p _ j rfl]
    exact Cert.Gcn.Pay.pay1'_apply x0 x1 x4 p j
  · obtain ⟨p, j, rfl⟩ : ∃ (p : Fin 400) (j : Fin 128), x = ix2 p j := ⟨x 0, x 1, eq_ix2 (n0 := 400) (n1 := 128) x⟩
    show x2 (ix2 p j) = _
    rw [show ((⟨rM, x2⟩ : View.Piece (Elt Ideal) S400x384 .f32).1.emb (ix2 p j)) = rM.emb (ix2 p j) from rfl,
      emb_rM, beside_mid _ _ _ p _ j rfl]
  · obtain ⟨p, j, rfl⟩ : ∃ (p : Fin 400) (j : Fin 128), x = ix2 p j := ⟨x 0, x 1, eq_ix2 (n0 := 400) (n1 := 128) x⟩
    show x3 (ix2 p j) = _
    rw [show ((⟨rL, x3⟩ : View.Piece (Elt Ideal) S400x384 .f32).1.emb (ix2 p j)) = rL.emb (ix2 p j) from rfl,
      emb_rL, beside_left _ _ _ p _ j rfl]

/-! ## The blocks the second launch reads, as entries of the arrays -/

section
variable (V : (c : Dev nD) → (b : Ref sig .tc) → Buf (Elt Ideal) ((c : Thread nD τ).loc b))

/-- The block indices at every grid point: the adjacency stripe, the two row blocks and the output block are at block
    row t; the whole first convolution and the weight are at block zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The adjacency block at point t is rows 400 t … 400 t + 399 of the adjacency matrix. -/
theorem iblk1_0_apply (c : Dev nD) (t : Fin cfg1.N) (p : Fin 400) (l : Fin 10000) (r : Fin 10000) (hr : r.val = 400 * t.val + p.val) :
    (iblk1 V c 0 t : Vec Ideal S400x10000 .f32) (ix2 p l) = (V c main_arg0 : S10000x10000.Idx → EReal) (ix2 r l) := by
  obtain ⟨e0, e1, -⟩ := idx_facts1 t
  unfold iblk1
  rw [View.read_apply]
  show V c main_arg0 _ = V c main_arg0 _
  congr 1
  funext a
  apply Fin.ext
  match a with
  | ⟨0, _⟩ => show win1_0.index t 0 * 400 + 1 * p.val = r.val; rw [e0, hr]; omega
  | ⟨1, _⟩ => show win1_0.index t 1 * 10000 + 1 * l.val = l.val; rw [e1]; omega

/-- The first convolution's whole-array block is the array. -/
theorem iblk1_1_apply (c : Dev nD) (t : Fin cfg1.N) (l : Fin 10000) (k : Fin 128) :
    (iblk1 V c 1 t : Vec Ideal S10000x128 .f32) (ix2 l k) = (V c main_v4_0 : S10000x128.Idx → EReal) (ix2 l k) := by
  obtain ⟨-, -, e0, e1, -⟩ := idx_facts1 t
  unfold iblk1
  rw [View.read_apply]
  show V c main_v4_0 _ = V c main_v4_0 _
  congr 1
  funext a
  apply Fin.ext
  match a with
  | ⟨0, _⟩ => show win1_1.index t 0 * 10000 + 1 * l.val = l.val; rw [e0]; omega
  | ⟨1, _⟩ => show win1_1.index t 1 * 128 + 1 * k.val = k.val; rw [e1]; omega

/-- The first convolution's row block at point t is rows 400 t … 400 t + 399 of it. -/
theorem iblk1_2_apply (c : Dev nD) (t : Fin cfg1.N) (p : Fin 400) (k : Fin 128) (r : Fin 10000) (hr : r.val = 400 * t.val + p.val) :
    (iblk1 V c 2 t : Vec Ideal S400x128 .f32) (ix2 p k) = (V c main_v4_0 : S10000x128.Idx → EReal) (ix2 r k) := by
  obtain ⟨-, -, -, -, e0, e1, -⟩ := idx_facts1 t
  unfold iblk1
  rw [View.read_apply]
  show V c main_v4_0 _ = V c main_v4_0 _
  congr 1
  funext a
  apply Fin.ext
  match a with
  | ⟨0, _⟩ => show win1_2.index t 0 * 400 + 1 * p.val = r.val; rw [e0, hr]; omega
  | ⟨1, _⟩ => show win1_2.index t 1 * 128 + 1 * k.val = k.val; rw [e1]; omega

/-- The self path's row block at point t is rows 400 t … 400 t + 399 of it. -/
theorem iblk1_3_apply (c : Dev nD) (t : Fin cfg1.N) (p : Fin 400) (k : Fin 128) (r : Fin 10000) (hr : r.val = 400 * t.val + p.val) :
    (iblk1 V c 3 t : Vec Ideal S400x128 .f32) (ix2 p k) = (V c main_v4_1 : S10000x128.Idx → EReal) (ix2 r k) := by
  obtain ⟨-, -, -, -, -, -, e0, e1, -⟩ := idx_facts1 t
  unfold iblk1
  rw [View.read_apply]
  show V c main_v4_1 _ = V c main_v4_1 _
  congr 1
  funext a
  apply Fin.ext
  match a with
  | ⟨0, _⟩ => show win1_3.index t 0 * 400 + 1 * p.val = r.val; rw [e0, hr]; omega
  | ⟨1, _⟩ => show win1_3.index t 1 * 128 + 1 * k.val = k.val; rw [e1]; omega

/-- The second weight's whole-array block is the array. -/
theorem iblk1_4_apply (c : Dev nD) (t : Fin cfg1.N) (k j : Fin 128) :
    (iblk1 V c 4 t : Vec Ideal S128x128 .f32) (ix2 k j) = (V c main_arg3 : S128x128.Idx → EReal) (ix2 k j) := by
  obtain ⟨-, -, -, -, -, -, -, -, e0, e1, -⟩ := idx_facts1 t
  unfold iblk1
  rw [View.read_apply]
  show V c main_arg3 _ = V c main_arg3 _
  congr 1
  funext a
  apply Fin.ext
  match a with
  | ⟨0, _⟩ => show win1_4.index t 0 * 128 + 1 * k.val = k.val; rw [e0]; omega
  | ⟨1, _⟩ => show win1_4.index t 1 * 128 + 1 * j.val = j.val; rw [e1]; omega

/-! ## The output array after the launch -/

/-- The output: self path, first convolution, second convolution side by side, over the arrays as the launch finds them. -/
abbrev G5 (c : Dev nD) : Mat 10000 384 :=
  beside (V c main_v4_1) (V c main_v4_0) (fun i => proj (aggr (V c main_arg0) (V c main_v4_0)) (V c main_arg3) (i 0) (i 1))

/-- Entry (p, q) of the output block at point t sits at row 400 t + p, column q of the output array. -/
theorem emb5 (t : Fin cfg1.N) (p : Fin 400) (q : Fin 384) (r : Fin 10000) (hr : r.val = 400 * t.val + p.val) :
    ((cfg1.win 5).blk t).view.emb (ix2 p q) = (ix2 r q : S10000x384.Idx) := by
  obtain ⟨-, -, -, -, -, -, -, -, -, -, e0, e1⟩ := idx_facts1 t
  funext a
  apply Fin.ext
  match a with
  | ⟨0, _⟩ => show win1_5.index t 0 * 400 + 1 * p.val = r.val; rw [e0, hr]; omega
  | ⟨1, _⟩ => show win1_5.index t 1 * 384 + 1 * q.val = q.val; rw [e1]; omega

/-- What point t writes back is block t of the output. -/
theorem flushed5_eq (c : Dev nD) (t : Fin cfg1.N) :
    (dat1 (F := Ideal) V c).flushed 5 t = ((cfg1.win 5).blk t).view.read (Elt Ideal) (G5 V c) := by
  show (cfg1.win 5).cut (grid1.coords t) ((dat1 V c).after 5 t) = _
  rw [after1_5, out1_5_eq]
  funext y
  obtain ⟨p, q, rfl⟩ : ∃ (p : Fin 400) (q : Fin 384), y = ix2 p q := ⟨y 0, y 1, eq_ix2 (n0 := 400) (n1 := 384) y⟩
  have hN : cfg1.N = 25 := Gen.N_1
  have ht : t.val < 25 := hN ▸ t.isLt
  obtain ⟨r, hr⟩ : ∃ r : Fin 10000, r.val = 400 * t.val + p.val := ⟨⟨400 * t.val + p.val, by omega⟩, rfl⟩
  show beside (iblk1 V c 3 t) (iblk1 V c 2 t) (fun i => proj (aggr (iblk1 V c 0 t) (iblk1 V c 1 t)) (iblk1 V c 4 t) (i 0) (i 1)) (ix2 p q)
    = beside (V c main_v4_1) (V c main_v4_0) (fun i => proj (aggr (V c main_arg0) (V c main_v4_0)) (V c main_arg3) (i 0) (i 1))
        (((cfg1.win 5).blk t).view.emb (ix2 p q))
  rw [emb5 t p q r hr]
  by_cases h1 : q.val < 128
  · rw [beside_left _ _ _ p q ⟨q.val, h1⟩ rfl, beside_left _ _ _ r q ⟨q.val, h1⟩ rfl]
    exact iblk1_3_apply V c t p _ r hr
  · by_cases h2 : q.val < 256
    · rw [beside_mid _ _ _ p q ⟨q.val - 128, by omega⟩ (by show q.val = 128 + (q.val - 128); omega),
        beside_mid _ _ _ r q ⟨q.val - 128, by omega⟩ (by show q.val = 128 + (q.val - 128); omega)]
      exact iblk1_2_apply V c t p _ r hr
    · rw [beside_right _ _ _ p q ⟨q.val - 256, by omega⟩ (by show q.val = 256 + (q.val - 256); omega),
        beside_right _ _ _ r q ⟨q.val - 256, by omega⟩ (by show q.val = 256 + (q.val - 256); omega)]
      show proj (aggr (iblk1 V c 0 t) (iblk1 V c 1 t)) (iblk1 V c 4 t) p _ = proj (aggr (V c main_arg0) (V c main_v4_0)) (V c main_arg3) r _
      unfold proj aggr
      refine Finset.sum_congr rfl fun k _ => congrArg₂ (· * ·) ?_ (iblk1_4_apply V c t k _)
      exact Finset.sum_congr rfl fun l _ => congrArg₂ (· * ·) (iblk1_0_apply V c t p l r hr) (iblk1_1_apply V c t l k)

/-- An entry of the output array is in point t's block iff its row is in rows 400 t … 400 t + 399. -/
theorem mem_blk5 (t : Fin cfg1.N) (i : S10000x384.Idx) :
    i ∈ ((cfg1.win 5).blk t).view.set ↔ ∀ a : Fin 2, win1_5.index t a * S400x384.size a ≤ (i a).val ∧ (i a).val < win1_5.index t a * S400x384.size a + S400x384.size a := by
  show i ∈ ((View.whole main_v5).slice (win1_5.rect t)).set ↔ _
  rw [View.set_slice_whole, Rect.mem_set_unit]
  exact Iff.rfl

/-- Every entry of the output array is in some point's block: row r is in point r / 400's. -/
theorem cover5 (i : S10000x384.Idx) : ∃ t : Fin cfg1.N, (cfg1.win 5).flush t = true ∧ i ∈ ((cfg1.win 5).blk t).view.set := by
  have hi0 : (i 0).val < 10000 := (i 0).isLt
  have hi1 : (i 1).val < 384 := (i 1).isLt
  have hN : cfg1.N = 25 := Gen.N_1
  obtain ⟨t, htv⟩ : ∃ t : Fin cfg1.N, t.val = (i 0).val / 400 := ⟨⟨(i 0).val / 400, by rw [hN]; omega⟩, rfl⟩
  obtain ⟨-, -, -, -, -, -, -, -, -, -, e0, e1⟩ := idx_facts1 t
  refine ⟨t, flush1_5 t, ?_⟩
  rw [mem_blk5]
  intro a
  match a with
  | ⟨0, _⟩ => show win1_5.index t 0 * 400 ≤ (i 0).val ∧ (i 0).val < win1_5.index t 0 * 400 + 400; rw [e0, htv]; omega
  | ⟨1, _⟩ => show win1_5.index t 1 * 384 ≤ (i 1).val ∧ (i 1).val < win1_5.index t 1 * 384 + 384; rw [e1]; omega

/-- The output array after the second launch: self path, first convolution and second convolution side by side. -/
theorem arr5 (c : Dev nD) : (dat1 (F := Ideal) V c).arrAt 5 cfg1.N
    = Cert.Gcn.beside (V c main_v4_1) (V c main_v4_0) (fun i => Cert.Gcn.proj (Cert.Gcn.aggr (V c main_arg0) (V c main_v4_0)) (V c main_arg3) (i 0) (i 1)) :=
  (dat1 (F := Ideal) V c).arrAt_eq_of_cover 5 (G5 V c) (fun t _ => flushed5_eq V c t) cover5

end

end Cert.KernelIdeal.HandV

end
-- ==== Proof.IdealHost.lean ====
/-
  What the four host operations before the first launch write, read at an index: the two weight matrices of the
  self path transposed, and its two bias vectors as one-row arrays; the four arrays the host operations do not
  write are as launched.
-/
import proofs.«145658_g5471788335182_cont_9to1c4b_211_5_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandV

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

/-! ## The four written arrays as functions of the launch contents -/

/-- The first transposed weight is the transpose of the fifth argument. -/
theorem v2_eq : (Gen.V1 (F := Ideal) m c main_v2 : S128x128.Idx → EReal)
    = transpose S128x128 [1, 0] (m ((c : Thread nD τ).loc main_arg4) : S128x128.Idx → EReal) transposes_S128x128_S128x128_1_0 := by
  dsimp only [Gen.V1, Gen.V0, Gen.hostOps0]
  after_results

/-- The second transposed weight is the transpose of the seventh argument. -/
theorem v3_eq : (Gen.V1 (F := Ideal) m c main_v3 : S128x128.Idx → EReal)
    = transpose S128x128 [1, 0] (m ((c : Thread nD τ).loc main_arg6) : S128x128.Idx → EReal) transposes_S128x128_S128x128_1_0 := by
  dsimp only [Gen.V1, Gen.V0, Gen.hostOps0]
  after_results

/-- The first bias row is the sixth argument with a unit axis in front. -/
theorem v0_eq : (Gen.V1 (F := Ideal) m c main_v0 : S1x128.Idx → EReal)
    = shapeCast S1x128 (m ((c : Thread nD τ).loc main_arg5) : S128.Idx → EReal) shapeCasts_S128_S1x128 := by
  dsimp only [Gen.V1, Gen.V0, Gen.hostOps0]
  after_results
  rfl

/-- The second bias row is the eighth argument with a unit axis in front. -/
theorem v1_eq : (Gen.V1 (F := Ideal) m c main_v1 : S1x128.Idx → EReal)
    = shapeCast S1x128 (m ((c : Thread nD τ).loc main_arg7) : S128.Idx → EReal) shapeCasts_S128_S1x128 := by
  dsimp only [Gen.V1, Gen.V0, Gen.hostOps0]
  after_results
  rfl

/-! ## Read at an index -/

/-- Entry (l, k) of the first transposed weight is entry (k, l) of the fifth argument. -/
theorem w1t_at (l k : Fin 128) : (Gen.V1 (F := Ideal) m c main_v2 : S128x128.Idx → EReal) (ix2 l k) = m ((c : Thread nD τ).loc main_arg4) (ix2 k l) :=
  (congrFun (v2_eq m c) (ix2 l k)).trans (transpose_ix2_apply _ _ l k)

/-- Entry (l, k) of the second transposed weight is entry (k, l) of the seventh argument. -/
theorem w2t_at (l k : Fin 128) : (Gen.V1 (F := Ideal) m c main_v3 : S128x128.Idx → EReal) (ix2 l k) = m ((c : Thread nD τ).loc main_arg6) (ix2 k l) :=
  (congrFun (v3_eq m c) (ix2 l k)).trans (transpose_ix2_apply _ _ l k)

/-- Entry (0, k) of the first bias row is entry k of the sixth argument. -/
theorem b1r_at (k : Fin 128) : (Gen.V1 (F := Ideal) m c main_v0 : S1x128.Idx → EReal) (ix2 (0 : Fin 1) k) = m ((c : Thread nD τ).loc main_arg5) (ix1 k) :=
  (congrFun (v0_eq m c) (ix2 (0 : Fin 1) k)).trans (shapeCast_a_1a_apply _ _ (0 : Fin 1) k)

/-- Entry (0, k) of the second bias row is entry k of the eighth argument. -/
theorem b2r_at (k : Fin 128) : (Gen.V1 (F := Ideal) m c main_v1 : S1x128.Idx → EReal) (ix2 (0 : Fin 1) k) = m ((c : Thread nD τ).loc main_arg7) (ix1 k) :=
  (congrFun (v1_eq m c) (ix2 (0 : Fin 1) k)).trans (shapeCast_a_1a_apply _ _ (0 : Fin 1) k)

/-! ## The arrays the host operations do not write -/

/-- The adjacency matrix is as launched. -/
theorem arg_at0 : Gen.V1 (F := Ideal) m c main_arg0 = m ((c : Thread nD τ).loc main_arg0) :=
  (Gen.V1_of m c main_arg0 (by decide)).trans rfl
/-- The features are as launched. -/
theorem arg_at1 : Gen.V1 (F := Ideal) m c main_arg1 = m ((c : Thread nD τ).loc main_arg1) :=
  (Gen.V1_of m c main_arg1 (by decide)).trans rfl
/-- The first convolution weight is as launched. -/
theorem arg_at2 : Gen.V1 (F := Ideal) m c main_arg2 = m ((c : Thread nD τ).loc main_arg2) :=
  (Gen.V1_of m c main_arg2 (by decide)).trans rfl
/-- The second convolution weight is as launched. -/
theorem arg_at3 : Gen.V1 (F := Ideal) m c main_arg3 = m ((c : Thread nD τ).loc main_arg3) :=
  (Gen.V1_of m c main_arg3 (by decide)).trans rfl

end Cert.KernelIdeal.HandV

end
-- ==== Proof.IdealValue.lean ====
/-
  The kernel's result is the layer of the specification. The second launch lays side by side the self path and the
  first convolution it finds in the first launch's two results, and the second convolution it computes from the first;
  the first launch's results are the first convolution of the arguments and the self path of the arguments, the host
  having stored the two linear weights transposed and the two biases as one-row arrays.
-/
import proofs.«145658_g5471788335182_cont_9to1c4b_211_5_alg».proof.Proof.IdealRun
import proofs.«145658_g5471788335182_cont_9to1c4b_211_5_alg».proof.Proof.IdealArr0
import proofs.«145658_g5471788335182_cont_9to1c4b_211_5_alg».proof.Proof.IdealArr1
import proofs.«145658_g5471788335182_cont_9to1c4b_211_5_alg».proof.Proof.IdealHost
import proofs.«145658_g5471788335182_cont_9to1c4b_211_5_alg».proof.Proof.Spec

set_option maxRecDepth 16384

noncomputable section

open scoped BigOperators

namespace Cert.KernelIdeal.HandV

open Cert.KernelIdeal Cert.KernelIdeal.Gen Cert.KernelIdeal.Hand Cert.Gcn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The three column blocks -/

/-- The self path over the stored weights and bias rows is the self path of the arguments: the stored weights are the
    arguments' transposes, the bias rows the arguments with a unit axis in front. -/
theorem self_block :
    selfStored (Gen.V1 (F := Ideal) m c main_arg1) (Gen.V1 (F := Ideal) m c main_v2) (Gen.V1 (F := Ideal) m c main_v0)
        (Gen.V1 (F := Ideal) m c main_v3) (Gen.V1 (F := Ideal) m c main_v1)
      = selfArr (m ((c : Thread nD τ).loc main_arg1)) (m ((c : Thread nD τ).loc main_arg4)) (m ((c : Thread nD τ).loc main_arg5))
          (m ((c : Thread nD τ).loc main_arg6)) (m ((c : Thread nD τ).loc main_arg7)) := by
  funext i
  obtain ⟨r, q, rfl⟩ : ∃ (r : Fin 10000) (q : Fin 128), i = ix2 r q := ⟨i 0, i 1, eq_ix2 i⟩
  rw [selfStored_apply]
  show _ = selfOut _ _ _ _ _ r q
  unfold selfOut hid
  refine congrArg₂ (· + ·) ?_ (b2r_at m c q)
  refine Finset.sum_congr rfl fun k _ => ?_
  refine congrArg₂ (· * ·) ?_ (w2t_at m c k q)
  refine congrArg (fun x => max x (0 : EReal)) ?_
  refine congrArg₂ (· + ·) ?_ (b1r_at m c k)
  refine Finset.sum_congr rfl fun l _ => ?_
  exact congrArg₂ (· * ·) (congrFun (arg_at1 m c) (ix2 r l)) (w1t_at m c l k)

/-- The first convolution of the arrays the first launch finds is the first convolution of the arguments. -/
theorem conv1_block :
    conv1Arr (Gen.V1 (F := Ideal) m c main_arg0) (Gen.V1 (F := Ideal) m c main_arg1) (Gen.V1 (F := Ideal) m c main_arg2)
      = conv1Arr (m ((c : Thread nD τ).loc main_arg0)) (m ((c : Thread nD τ).loc main_arg1)) (m ((c : Thread nD τ).loc main_arg2)) := by
  rw [arg_at0 m c, arg_at1 m c, arg_at2 m c]

/-- The second launch's computed block, over the first convolution as an array, is the second convolution. -/
theorem conv2_block (A : Mat 10000 10000) (X : Mat 10000 128) (W W' : Mat 128 128) :
    (fun i : (⟨2, ![10000, 128]⟩ : Shape).Idx => proj (aggr A (conv1Arr A X W)) W' (i 0) (i 1)) = conv2Arr A X W W' := rfl

/-! ## The result -/

/-- What the first launch leaves in its second result is the self path of the arguments. -/
theorem self_left : E2 m c main_v4_1
      = selfArr (m ((c : Thread nD τ).loc main_arg1)) (m ((c : Thread nD τ).loc main_arg4)) (m ((c : Thread nD τ).loc main_arg5))
          (m ((c : Thread nD τ).loc main_arg6)) (m ((c : Thread nD τ).loc main_arg7)) :=
  (W2_v4_1 m c).trans ((arr9 (E1 m) c).trans (self_block m c))

/-- What the first launch leaves in its first result is the first convolution of the arguments. -/
theorem conv1_left : E2 m c main_v4_0
      = conv1Arr (m ((c : Thread nD τ).loc main_arg0)) (m ((c : Thread nD τ).loc main_arg1)) (m ((c : Thread nD τ).loc main_arg2)) :=
  (W2_v4_0 m c).trans ((arr8 (E1 m) c).trans (conv1_block m c))

/-- The second launch finds the adjacency matrix as launched. -/
theorem adj_left : E2 m c main_arg0 = (m ((c : Thread nD τ).loc main_arg0)) :=
  (W2_of m c main_arg0 (by decide)).trans (arg_at0 m c)

/-- The second launch finds the second convolution weight as launched. -/
theorem weight2_left : E2 m c main_arg3 = (m ((c : Thread nD τ).loc main_arg3)) :=
  (W2_of m c main_arg3 (by decide)).trans (arg_at3 m c)

/-- The kernel's result array is the layer of the specification, of the eight arguments as launched. -/
theorem kernel_value :
    (dat1 (F := Ideal) (E2 m) c).arrAt 5 cfg1.N
      = Cert.Gcn.layer (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7)) := by
  refine (arr5 (E2 m) c).trans ?_
  rw [self_left m c, conv1_left m c, adj_left m c, weight2_left m c]
  rfl

end Cert.KernelIdeal.HandV

end
-- ==== Proof.RefValue.lean ====
/-
  The reference program computes the layer of the specification: its three column blocks, read index by index, are the
  self path, the first convolution and the second convolution, and its last operation lays them side by side.
-/
import proofs.«145658_g5471788335182_cont_9to1c4b_211_5_alg».proof.Proof.Spec
import proofs.«145658_g5471788335182_cont_9to1c4b_211_5_alg».proof.Proof.Gen.ReferenceIdeal.Read

noncomputable section

open scoped BigOperators

namespace Cert.Gcn.Ref

open Cert.ReferenceIdeal Cert.ReferenceIdeal.Read Idealize.ShloMosaic Idealize.ShloMosaic.ValueIdx

/-- Two rank-2 indices with the same two coordinates are equal. -/
theorem idx2_ext {n0 n1 : Nat} (p q : (⟨2, ![n0, n1]⟩ : Shape).Idx) (h0 : p 0 = q 0) (h1 : p 1 = q 1) : p = q := by
  funext a
  match a with
  | ⟨0, _⟩ => exact h0
  | ⟨1, _⟩ => exact h1

/-- Two rank-1 indices with the same coordinate are equal. -/
theorem idx1_ext {n0 : Nat} (p q : (⟨1, ![n0]⟩ : Shape).Idx) (h0 : p 0 = q 0) : p = q := by
  funext a
  match a with
  | ⟨0, _⟩ => exact h0

/-! ## The first convolution -/

/-- A · X at (r, j). -/
theorem v0_at (x0 : Mat 10000 10000) (x1 : Mat 10000 128) (r : Fin 10000) (j : Fin 128) :
    val_main_v0 (F := Ideal) x0 x1 (ix2 r j) = aggr x0 x1 r j := by
  rw [val_main_v0_apply]
  unfold aggr
  refine Finset.sum_congr rfl fun l _ => ?_
  rw [show lidx_main_v0 (ix2 r j) l = ix2 r l from idx2_ext _ _ rfl rfl,
    show ridx_main_v0 (ix2 r j) l = ix2 l j from idx2_ext _ _ rfl rfl]

/-- relu((A · X) · W) at (r, j). -/
theorem v2_at (x0 : Mat 10000 10000) (x1 : Mat 10000 128) (x2 : Mat 128 128) (r : Fin 10000) (j : Fin 128) :
    val_main_v2 (F := Ideal) x0 x1 x2 (ix2 r j) = conv1 x0 x1 x2 r j := by
  rw [val_main_v2_apply, val_main_v1_apply, val_main_call0_v0_apply, val_main_call0_cst_apply]
  unfold conv1 proj
  show max _ (Ideal.ofBits .f32 0x00000000#32) = max _ 0
  rw [Ideal.ofBits_zero_f32]
  refine congrArg (fun t => max t (0 : EReal)) ?_
  refine Finset.sum_congr rfl fun k _ => ?_
  rw [show lidx_main_v1 (ix2 r j) k = ix2 r k from idx2_ext _ _ rfl rfl,
    show ridx_main_v1 (ix2 r j) k = ix2 k j from idx2_ext _ _ rfl rfl, v0_at]

/-! ## The second convolution -/

/-- A · conv1 at (r, k). -/
theorem v3_at (x0 : Mat 10000 10000) (x1 : Mat 10000 128) (x2 : Mat 128 128) (r : Fin 10000) (k : Fin 128) :
    val_main_v3 (F := Ideal) x0 x1 x2 (ix2 r k) = aggr x0 (conv1Arr x0 x1 x2) r k := by
  rw [val_main_v3_apply]
  unfold aggr
  refine Finset.sum_congr rfl fun l _ => ?_
  rw [show lidx_main_v3 (ix2 r k) l = ix2 r l from idx2_ext _ _ rfl rfl,
    show ridx_main_v3 (ix2 r k) l = ix2 l k from idx2_ext _ _ rfl rfl, v2_at]
  rfl

/-- (A · conv1) · W' at (r, j). -/
theorem v4_at (x0 : Mat 10000 10000) (x1 : Mat 10000 128) (x2 x3 : Mat 128 128) (r : Fin 10000) (j : Fin 128) :
    val_main_v4 (F := Ideal) x0 x1 x2 x3 (ix2 r j) = conv2 x0 x1 x2 x3 r j := by
  rw [val_main_v4_apply]
  unfold conv2 proj
  refine Finset.sum_congr rfl fun k _ => ?_
  rw [show lidx_main_v4 (ix2 r j) k = ix2 r k from idx2_ext _ _ rfl rfl,
    show ridx_main_v4 (ix2 r j) k = ix2 k j from idx2_ext _ _ rfl rfl, v3_at]

/-! ## The self path -/

/-- relu(X · W1ᵀ + b1) at (r, k). -/
theorem v10_at (x1 : Mat 10000 128) (x4 : Mat 128 128) (x5 : Row 128) (r : Fin 10000) (k : Fin 128) :
    val_main_v10 (F := Ideal) x1 x4 x5 (ix2 r k) = hid x1 x4 x5 r k := by
  rw [val_main_v10_apply, val_main_v9_apply, val_main_v6_apply, val_main_v8_apply, val_main_v7_apply,
    val_main_call1_v0_apply, val_main_call1_cst_apply]
  unfold hid
  show max (_ + _) (Ideal.ofBits .f32 0x00000000#32) = max _ 0
  rw [Ideal.ofBits_zero_f32,
    show idx_main_v7 (idx_main_v8 (ix2 r k)) = ix1 k from idx1_ext _ _ rfl]
  refine congrArg (fun t => max (t + x5 (ix1 k)) (0 : EReal)) ?_
  refine Finset.sum_congr rfl fun l _ => ?_
  rw [val_main_v5_apply, show lidx_main_v6 (ix2 r k) l = ix2 r l from idx2_ext _ _ rfl rfl,
    show idx_main_v5 (ridx_main_v6 (ix2 r k) l) = ix2 k l from idx2_ext _ _ rfl rfl]

/-- relu(X · W1ᵀ + b1) · W2ᵀ + b2 at (r, j). -/
theorem v15_at (x1 : Mat 10000 128) (x4 : Mat 128 128) (x5 : Row 128) (x6 : Mat 128 128) (x7 : Row 128)
    (r : Fin 10000) (j : Fin 128) :
    val_main_v15 (F := Ideal) x1 x4 x5 x6 x7 (ix2 r j) = selfOut x1 x4 x5 x6 x7 r j := by
  rw [val_main_v15_apply, val_main_v12_apply, val_main_v14_apply, val_main_v13_apply]
  unfold selfOut
  show _ + _ = _ + _
  rw [show idx_main_v13 (idx_main_v14 (ix2 r j)) = ix1 j from idx1_ext _ _ rfl]
  refine congrArg (fun t => t + x7 (ix1 j)) ?_
  refine Finset.sum_congr rfl fun k _ => ?_
  rw [val_main_v11_apply, show lidx_main_v12 (ix2 r j) k = ix2 r k from idx2_ext _ _ rfl rfl,
    show idx_main_v11 (ridx_main_v12 (ix2 r j) k) = ix2 j k from idx2_ext _ _ rfl rfl, v10_at]

/-! ## The three blocks side by side -/

/-- The reference's result is the layer of the specification. -/
theorem ref_eq_layer (x0 : (⟨Cert.ReferenceIdeal.S10000x10000, .f32⟩ : BufTy).Contents (Elt Ideal))
    (x1 : (⟨Cert.ReferenceIdeal.S10000x128, .f32⟩ : BufTy).Contents (Elt Ideal))
    (x2 x3 x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal)) :
    Cert.ReferenceIdeal.Read.val_main_v16 (F := Ideal) x0 x1 x2 x3 x4 x5 x6 x7
      = Cert.Gcn.layer x0 x1 x2 x3 x4 x5 x6 x7 := by
  funext i
  unfold val_main_v16 layer beside
  have h3 : (i 1).val < 384 := (i 1).isLt
  by_cases h : (i 1).val < 128
  · rw [dif_pos h]
    refine Eq.trans (concatenate_apply_piece (1 : Fin 2) _ _ i 0 ?_ S10000x128
      (val_main_v15 (F := Ideal) x1 x4 x5 x6 x7) ?_ rfl 0 ?_
      (ix2 (i 0) ⟨(i 1).val, h⟩) ?_ ?_) (v15_at x1 x4 x5 x6 x7 _ _)
    · show (0 : Nat) < 3
      omega
    · rfl
    · rfl
    · intro b hb
      match b with
      | ⟨0, _⟩ => rfl
      | ⟨1, _⟩ => exact absurd rfl hb
    · exact Nat.zero_add _
  · rw [dif_neg h]
    by_cases h2 : (i 1).val < 256
    · rw [dif_pos h2]
      refine Eq.trans (concatenate_apply_piece (1 : Fin 2) _ _ i 1 ?_ S10000x128
      (val_main_v2 (F := Ideal) x0 x1 x2) ?_ rfl 128 ?_
      (ix2 (i 0) ⟨(i 1).val - 128, by omega⟩) ?_ ?_) (v2_at x0 x1 x2 _ _)
      · show (1 : Nat) < 3
        omega
      · rfl
      · rfl
      · intro b hb
        match b with
        | ⟨0, _⟩ => rfl
        | ⟨1, _⟩ => exact absurd rfl hb
      · show 128 + ((i 1).val - 128) = (i 1).val
        omega
    · rw [dif_neg h2]
      refine Eq.trans (concatenate_apply_piece (1 : Fin 2) _ _ i 2 ?_ S10000x128
      (val_main_v4 (F := Ideal) x0 x1 x2 x3) ?_ rfl 256 ?_
      (ix2 (i 0) ⟨(i 1).val - 256, by omega⟩) ?_ ?_) (v4_at x0 x1 x2 x3 _ _)
      · show (2 : Nat) < 3
        omega
      · rfl
      · rfl
      · intro b hb
        match b with
        | ⟨0, _⟩ => rfl
        | ⟨1, _⟩ => exact absurd rfl hb
      · show 256 + ((i 1).val - 256) = (i 1).val
        omega

end Cert.Gcn.Ref

end
-- ==== Proof.lean ====
/-
  A graph-convolution layer in two kernel launches against its jnp reference, equal on the extended reals.

  With A the adjacency matrix, X the features, W, W' the convolution weights and W1, b1, W2, b2 the self path's two linear
  layers, both programs compute the [10000,384] array  [ relu(X·W1ᵀ + b1)·W2ᵀ + b2 | relu((A·X)·W) | (A·relu((A·X)·W))·W' ].
  The kernel's first launch walks 25 row blocks of A and writes, per block, the rows of the first convolution and of the
  self path; its second launch walks the same row blocks, forms the second convolution from the whole first one, and lays
  the three results side by side. On the extended reals a change of float format is the identity, a matrix product into a
  zero accumulator is the plain sum over the contracted position, and both programs group every product the same way, so
  the two results agree entry by entry with no algebraic law beyond reading each sum where it stands; the finiteness of
  the inputs is never used. The frames: each launch takes its windows' arrays out of the core's unscoped buffers and puts
  them back, the array that two windows of a launch read being lent to them by halves (Proof/IdealRun.lean and its
  word-level twin); the reference's frame is its run with the result dropped. The idealization rewrote nothing, so
  `preserves` is trivial.
-/
import proofs.«145658_g5471788335182_cont_9to1c4b_211_5_alg».proof.Defs
import proofs.«145658_g5471788335182_cont_9to1c4b_211_5_alg».proof.Proof.Gen.Kernel
import proofs.«145658_g5471788335182_cont_9to1c4b_211_5_alg».proof.Proof.Gen.KernelIdeal
import proofs.«145658_g5471788335182_cont_9to1c4b_211_5_alg».proof.Proof.Gen.ReferenceIdeal
import proofs.«145658_g5471788335182_cont_9to1c4b_211_5_alg».proof.Proof.Gen.ReferenceIdeal.Run
import proofs.«145658_g5471788335182_cont_9to1c4b_211_5_alg».proof.Proof.Gen.ReferenceIdeal.Read
import proofs.«145658_g5471788335182_cont_9to1c4b_211_5_alg».proof.Proof.Gen.Pre_finite_inputs
import proofs.«145658_g5471788335182_cont_9to1c4b_211_5_alg».proof.Proof.BitsRun
import proofs.«145658_g5471788335182_cont_9to1c4b_211_5_alg».proof.Proof.IdealRun
import proofs.«145658_g5471788335182_cont_9to1c4b_211_5_alg».proof.Proof.IdealValue
import proofs.«145658_g5471788335182_cont_9to1c4b_211_5_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_kernel [Cert.Kernel.Facts] [Cert.Pre_finite_inputs.Facts] : Cert.frame_Kernel := fun m ρ _ => Cert.Kernel.Hand.frame (F := Bits) m ρ

/-- So does its idealization. -/
theorem frame_kernelIdeal [Cert.KernelIdeal.Facts] [Cert.Pre_finite_inputs.Facts] : Cert.frame_KernelIdeal := fun m ρ _ => Cert.KernelIdeal.Hand.frame (F := Ideal) m ρ

/-- The reference's frame is its run with the result dropped. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the layer's array of the (agreeing) arguments. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.HandV.kernel_value m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.Gcn.Ref.ref_eq_layer, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
